-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) (main_arg6 : FVec F S64x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1x128 : Shape := ⟨2, ![1, 128]⟩
abbrev S1x64 : Shape := ⟨2, ![1, 64]⟩
abbrev S1x1 : Shape := ⟨2, ![1, 1]⟩
abbrev S4000x128 : Shape := ⟨2, ![4000, 128]⟩
abbrev S4000x1 : Shape := ⟨2, ![4000, 1]⟩
abbrev S1700000x128 : Shape := ⟨2, ![1700000, 128]⟩
abbrev S100000x64 : Shape := ⟨2, ![100000, 64]⟩
abbrev S4000x64 : Shape := ⟨2, ![4000, 64]⟩
abbrev S1700000x64 : Shape := ⟨2, ![1700000, 64]⟩
abbrev S100000x2 : Shape := ⟨2, ![100000, 2]⟩
abbrev S4000x2 : Shape := ⟨2, ![4000, 2]⟩

abbrev nBuf : Space → Nat
  | .hbm => 67
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S1x128, .f32⟩
  | .hbm, ⟨34, _⟩ => ⟨S1x64, .f32⟩
  | .hbm, ⟨35, _⟩ => ⟨S1x1, .f32⟩
  | .hbm, ⟨36, _⟩ => ⟨S100000x128, .bf16⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000x128, .bf16⟩
  | .hbm, ⟨46, _⟩ => ⟨S1700000x128, .f32⟩
  | .hbm, ⟨47, _⟩ => ⟨S_, .f32⟩
  | .hbm, ⟨48, _⟩ => ⟨S100000x128, .f32⟩
  | .hbm, ⟨49, _⟩ => ⟨S1700000x1, .i32⟩
  | .hbm, ⟨50, _⟩ => ⟨S100000x128, .f32⟩
  | .hbm, ⟨51, _⟩ => ⟨S100000x64, .bf16⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .bf16⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S100000x2, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x1, .f32⟩
  | .local _ .vmem, ⟨4, _⟩ => ⟨S4000x1, .f32⟩
  | .local _ .vmem, ⟨5, _⟩ => ⟨S4000x128, .bf16⟩
  | .local _ .vmem, ⟨6, _⟩ => ⟨S4000x128, .bf16⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S128x64, .f32⟩
  | .local _ .vmem, ⟨13, _⟩ => ⟨S4000x64, .bf16⟩
  | .local _ .vmem, ⟨14, _⟩ => ⟨S4000x64, .bf16⟩
  | .local _ .vmem, ⟨15, _⟩ => ⟨S4000x64, .f32⟩
  | .local _ .vmem, ⟨16, _⟩ => ⟨S4000x64, .f32⟩
  | .local _ .vmem, ⟨17, _⟩ => ⟨S4000x1, .f32⟩
  | .local _ .vmem, ⟨18, _⟩ => ⟨S4000x1, .f32⟩
  | .local _ .vmem, ⟨19, _⟩ => ⟨S1x64, .f32⟩
  | .local _ .vmem, ⟨20, _⟩ => ⟨S64x1, .f32⟩
  | .local _ .vmem, ⟨21, _⟩ => ⟨S1x1, .f32⟩
  | .local _ .vmem, ⟨22, _⟩ => ⟨S4000x2, .f32⟩
  | .local _ .vmem, ⟨23, _⟩ => ⟨S4000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  shapeCasts_S128_S1x128 : S128.ShapeCasts S1x128
  shapeCasts_S64_S1x64 : S64.ShapeCasts S1x64
  shapeCasts_S1_S1x1 : S1.ShapeCasts S1x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  concatenates_S4000x1_S4000x1_S4000x2_d1 : Shape.Concatenates [S4000x1, S4000x1] S4000x2 1
  inb_S4000x2_S4000x2_0_0 : ∀ a, (![0, 0] : Fin 2 → Nat) a + S4000x2.size a ≤ S4000x2.size a
  h_S4000x2 : 0 < S4000x2.numel
  scatter_S100000_S1700000x1_S1700000_n_0_0_1_wf : ScatterDims.WF S100000 S1700000x1 S1700000 [] [0] [0] 1
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x64_S4000x64_1_0_0_1_n_n_wf : DotDims.WF S4000x128 S128x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S4000x64_S64x1_S4000x1_1_0_0_1_n_n_wf : DotDims.WF S4000x64 S64x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .bf16 = 32 ∨ (Rect.block (s := S100000x64) S4000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S64x1.size a
  hwx2_3 : ∀ i : grid2.Coords, EltTy.bits .f32 = 32 ∨ (Rect.block (s := S64x1) S64x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x2.size a ≤ S100000x2.size a
  hwx2_5 : ∀ i : grid2.Coords, EltTy.bits .f32 = 32 ∨ (Rect.block (s := S100000x2) S4000x2.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S64x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S4000x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩
abbrev S100000x2 : Shape := ⟨2, ![100000, 2]⟩

abbrev nBuf : Space → Nat
  | .hbm => 106
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x64, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x64, .f32⟩
  | .hbm, ⟨84, _⟩ => ⟨S1700000x1, .f32⟩
  | .hbm, ⟨85, _⟩ => ⟨S1700000x64, .f32⟩
  | .hbm, ⟨86, _⟩ => ⟨S1700000x64, .f32⟩
  | .hbm, ⟨87, _⟩ => ⟨S_, .f32⟩
  | .hbm, ⟨88, _⟩ => ⟨S100000x64, .f32⟩
  | .hbm, ⟨89, _⟩ => ⟨S1700000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S100000x1, .f32⟩
  | .hbm, ⟨98, _⟩ => ⟨S1x1, .f32⟩
  | .hbm, ⟨99, _⟩ => ⟨S100000x1, .f32⟩
  | .hbm, ⟨100, _⟩ => ⟨S100000x1, .f32⟩
  | .hbm, ⟨101, _⟩ => ⟨S100000, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  bcast_S100000_S100000x1_0 : S100000.BroadcastsInDim S100000x1 (![0] : Fin 1 → Fin S100000x1.rank)
  concatenates_S100000x1_S100000x1_S100000x2_d1 : Shape.Concatenates [S100000x1, S100000x1] S100000x2 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The kernel program's run with its result named.

  The program is eight segments: three stretches of host operations, then the first row-block kernel, a stretch (gather
  and scatter), the second kernel, a stretch, the third kernel. The contents of every unscoped buffer at each boundary
  form a fold through the program from the launch memory (the generated `W0 … W8`); at the return every unscoped
  buffer holds `W8`. Read at the result array this names the program's result; read at the arguments it says they end
  as launched.
-/
import proofs.«165097_j8383776162491_2_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element funds the staging cells of all three kernels; no other ghost resource is dealt. -/
theorem launch_element :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro H
  imodintro
  isplitl [H]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact H
  · rw [BI.bigSep_emp_const]
    iempintro

-- the implicit arguments of the launch theorem for a program of several segments are found by unifying its conclusion
-- with this one, which takes unfolding plain definitions in a metavariable's type
set_option backward.isDefEq.respectTransparency.types false in
/-- Every weakly fair execution of the kernel program terminates without a fault; the result array then holds the last
    boundary's contents `W8` there, and the arguments are as launched. -/
theorem run_result : θ_run defs (onTc (τ := τ) (main (F := F))) ⟨m, fun _ => 0, ρ⟩ (fun r => ∀ c : Dev nD,
      r.2.mem ((c.tc : Thread nD τ).loc main_v45) = W8 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_element)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl⟩)
    (hinit := by
      -- core by core: the unscoped buffers at the launch memory are the first thread state's held buffers; the
      -- generator register and the empty debt ride along
      refine Pipeline.initEach L lv fun c => ?_
      rw [show unscopedBufs c (fun b => m ((c : Thread nD τ).loc b))
            = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]
      · iexact Hbufs
      isplitl [Hreg]
      · iexists _
        iexact Hreg
      iexists ∅
      iexact Howes)
    (QY := fun c s => ∀ b ∈ Pipeline.ucRefs τ sig, s.mem (((c : Thread nD τ)).1, b) = W8 m ρ c b)
    (hfin := fun c s' => by
      -- the last thread state holds every unscoped buffer at `W8`: read them all against the final state
      iintro ⟨⟨Hbufs, -⟩, Hstate⟩
      unfold StableHlo.held
      imodintro
      iapply (pointsTo_read_all (Pipeline.ucRefs τ sig) (fun b => (((c : Thread nD τ)).1, b)) (W8 m ρ c) s')
      isplitl [Hbufs] <;> iassumption)
    (hQ := fun s h c =>
      ⟨h c _ (mem_uc main_v45 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.ValueRun

end
-- ==== Proof.KernelWalk.lean ====
/-
  The kernel program's buffers between its segments, traced back.

  The buffer contents at the eight boundaries of the program form a fold from the launch memory (`W0 … W8`). A buffer
  that a stretch of host operations does not write, that a kernel does not have among its arrays, or that a kernel only
  reads through an input window, holds after the segment what it held before. Walking back this way, every array a
  kernel or a gather/scatter stretch reads is either an argument as launched, or one of the values the first host
  operations compute from the edge array alone — the source and destination words, the inverse square root of the
  in-degree (laid out as a column), the biases laid out as rows — or the previous segment's result.
-/
import proofs.«165097_j8383776162491_2_alg».proof.Proof.Gen.KernelIdeal.Frame
import proofs.«165097_j8383776162491_2_alg».proof.Proof.ReferenceReadP
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Walk

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg) (c : Dev nD)

/-! ## A stretch of host operations leaves alone every buffer it does not write -/

/-- The first stretch writes only the values it computes from the edge array and its constants. -/
theorem keep1 (b : Ref sig .tc)
    (hb : ∀ y ∈ ([main_v0, main_v1, main_v2, main_v3, main_v4, main_v5, main_v6, main_cst, main_v7, main_cst_0, main_v8, main_v9, main_v10, main_cst_1, main_v11, main_v12, main_cst_2, main_v13, main_v14, main_v15, main_cst_3] : List (Ref sig .tc)), b ≠ y) :
    W1 m ρ c (Proc.devRef .tc b) = W0 m ρ c (Proc.devRef .tc b) := by
  refine StableHlo.after_of_forall_not_mem (b := Proc.devRef .tc b) _ _ (List.forall_iff_forall_mem.mp ?_)
  simp only [hostOps0, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (hb _ (by decide))

/-- The second stretch (the select between the inverse square root and zero) writes only its three values. -/
theorem keep2 (b : Ref sig .tc)
    (hb : ∀ y ∈ ([main_call0_v0, main_call0_v1, main_v16] : List (Ref sig .tc)), b ≠ y) :
    W2 m ρ c (Proc.devRef .tc b) = W1 m ρ c (Proc.devRef .tc b) := by
  refine StableHlo.after_of_forall_not_mem (b := Proc.devRef .tc b) _ _ (List.forall_iff_forall_mem.mp ?_)
  simp only [hostOps0_1, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (hb _ (by decide))

/-- The third stretch writes only the four re-laid arrays: the factor column, the two bias rows, the scalar bias. -/
theorem keep3 (b : Ref sig .tc)
    (hb : ∀ y ∈ ([main_v17, main_v18, main_v19, main_v20] : List (Ref sig .tc)), b ≠ y) :
    W3 m ρ c (Proc.devRef .tc b) = W2 m ρ c (Proc.devRef .tc b) := by
  refine StableHlo.after_of_forall_not_mem (b := Proc.devRef .tc b) _ _ (List.forall_iff_forall_mem.mp ?_)
  simp only [hostOps0_2, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (hb _ (by decide))

/-- The stretch between the first and second kernel writes only its own gather and scatter values. -/
theorem keep5 (b : Ref sig .tc)
    (hb : ∀ y ∈ ([main_c, main_v22, main_v23, main_c_4, main_v24, main_v25, main_v26, main_v27, main_v28, main_v29, main_cst_5, main_v30, main_v31, main_v32] : List (Ref sig .tc)), b ≠ y) :
    W5 m ρ c (Proc.devRef .tc b) = W4 m ρ c (Proc.devRef .tc b) := by
  refine StableHlo.after_of_forall_not_mem (b := Proc.devRef .tc b) _ _ (List.forall_iff_forall_mem.mp ?_)
  simp only [hostOps1, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (hb _ (by decide))

/-- The stretch between the second and third kernel writes only its own gather and scatter values. -/
theorem keep7 (b : Ref sig .tc)
    (hb : ∀ y ∈ ([main_c_6, main_v34, main_v35, main_c_7, main_v36, main_v37, main_v38, main_v39, main_v40, main_v41, main_cst_8, main_v42, main_v43, main_v44] : List (Ref sig .tc)), b ≠ y) :
    W7 m ρ c (Proc.devRef .tc b) = W6 m ρ c (Proc.devRef .tc b) := by
  refine StableHlo.after_of_forall_not_mem (b := Proc.devRef .tc b) _ _ (List.forall_iff_forall_mem.mp ?_)
  simp only [hostOps2, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (hb _ (by decide))

/-! ## What a stretch computes, from whatever contents it starts at -/

/-- The third stretch lays the factor vector out as a column … -/
theorem relaid_v17 (X : Valuation τ sig (Elt Ideal)) :
    (StableHlo.after hostOps0_2 X (Proc.devRef .tc main_v17) : S100000x1.Idx → EReal)
      = shapeCast S100000x1 (X (Proc.devRef .tc main_v16) : S100000.Idx → EReal) shapeCasts_S100000_S100000x1 := by
  after_results
  rfl

/-- … the first bias as a row … -/
theorem relaid_v18 (X : Valuation τ sig (Elt Ideal)) :
    (StableHlo.after hostOps0_2 X (Proc.devRef .tc main_v18) : S1x128.Idx → EReal)
      = shapeCast S1x128 (X (Proc.devRef .tc main_arg3) : S128.Idx → EReal) shapeCasts_S128_S1x128 := by
  after_results
  rfl

/-- … the second bias as a row … -/
theorem relaid_v19 (X : Valuation τ sig (Elt Ideal)) :
    (StableHlo.after hostOps0_2 X (Proc.devRef .tc main_v19) : S1x64.Idx → EReal)
      = shapeCast S1x64 (X (Proc.devRef .tc main_arg5) : S64.Idx → EReal) shapeCasts_S64_S1x64 := by
  after_results
  rfl

/-- … and the head's bias as a one-entry matrix. -/
theorem relaid_v20 (X : Valuation τ sig (Elt Ideal)) :
    (StableHlo.after hostOps0_2 X (Proc.devRef .tc main_v20) : S1x1.Idx → EReal)
      = shapeCast S1x1 (X (Proc.devRef .tc main_arg7) : S1.Idx → EReal) shapeCasts_S1_S1x1 := by
  after_results
  rfl

/-- An [a] array cast to a column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The first stretch computes the source words from the edge array: its first row, then the self loops … -/
theorem computed_v3 (X : Valuation τ sig (Elt Ideal)) :
    (StableHlo.after hostOps0 X (Proc.devRef .tc main_v3) : IVec S1700000 32)
      = Cert.ReferenceIdeal.ReadP.val_main_v3 (F := Ideal) (X (Proc.devRef .tc main_arg1)) := by
  after_results
  rfl

/-- … and the destination words: its second row, then the self loops. -/
theorem computed_v6 (X : Valuation τ sig (Elt Ideal)) :
    (StableHlo.after hostOps0 X (Proc.devRef .tc main_v6) : IVec S1700000 32)
      = Cert.ReferenceIdeal.ReadP.val_main_v6 (F := Ideal) (X (Proc.devRef .tc main_arg1)) := by
  after_results
  rfl

/-- The in-degree: ones scattered by the destination words onto zeros. -/
theorem computed_v10 (X : Valuation τ sig (Elt Ideal)) :
    (StableHlo.after hostOps0 X (Proc.devRef .tc main_v10) : S100000.Idx → EReal)
      = Cert.ReferenceIdeal.ReadP.val_main_v10 (F := Ideal) (X (Proc.devRef .tc main_arg1)) := by
  after_results
  rfl

/-- Where the in-degree is positive … -/
theorem computed_v12 (X : Valuation τ sig (Elt Ideal)) :
    (StableHlo.after hostOps0 X (Proc.devRef .tc main_v12) : IVec S100000 1)
      = Cert.ReferenceIdeal.ReadP.val_main_v12 (F := Ideal) (X (Proc.devRef .tc main_arg1)) := by
  after_results
  rfl

/-- … the inverse square root of the in-degree floored at one … -/
theorem computed_v15 (X : Valuation τ sig (Elt Ideal)) :
    (StableHlo.after hostOps0 X (Proc.devRef .tc main_v15) : S100000.Idx → EReal)
      = Cert.ReferenceIdeal.ReadP.val_main_v15 (F := Ideal) (X (Proc.devRef .tc main_arg1)) := by
  after_results
  rfl

/-- … and the zero it is replaced by elsewhere. -/
theorem computed_cst_3 (X : Valuation τ sig (Elt Ideal)) :
    (StableHlo.after hostOps0 X (Proc.devRef .tc main_cst_3) : S_.Idx → EReal)
      = Cert.ReferenceIdeal.ReadP.val_main_cst_3 (F := Ideal) := by
  after_results
  rfl

/-- The second stretch selects between the two. -/
theorem selected_v16 (X : Valuation τ sig (Elt Ideal)) :
    (StableHlo.after hostOps0_1 X (Proc.devRef .tc main_v16) : S100000.Idx → EReal)
      = select (X (Proc.devRef .tc main_v12) : IVec S100000 1) (X (Proc.devRef .tc main_v15) : S100000.Idx → EReal)
          (broadcastInDim S100000 ![] bcast_S_S100000 (id (X (Proc.devRef .tc main_cst_3) : S_.Idx → EReal))) := by
  after_results
  rfl

/-! ## The values computed from the edge array, where the stretches leave them -/

theorem v12_1 : (W1 m ρ c (Proc.devRef .tc main_v12) : IVec S100000 1) = Cert.ReferenceIdeal.ReadP.val_main_v12 (F := Ideal) (m ((c : Thread nD τ).loc main_arg1)) :=
  computed_v12 (W0 m ρ c)
theorem v15_1 : (W1 m ρ c (Proc.devRef .tc main_v15) : S100000.Idx → EReal) = Cert.ReferenceIdeal.ReadP.val_main_v15 (F := Ideal) (m ((c : Thread nD τ).loc main_arg1)) :=
  computed_v15 (W0 m ρ c)
theorem cst3_1 : (W1 m ρ c (Proc.devRef .tc main_cst_3) : S_.Idx → EReal) = Cert.ReferenceIdeal.ReadP.val_main_cst_3 (F := Ideal) :=
  computed_cst_3 (W0 m ρ c)

/-- The inverse square root of the in-degree (zero where the degree is zero) after the second stretch. -/
theorem v16_2 : (W2 m ρ c (Proc.devRef .tc main_v16) : S100000.Idx → EReal) = Cert.ReferenceIdeal.ReadP.val_main_v16 (F := Ideal) (m ((c : Thread nD τ).loc main_arg1)) := by
  refine (selected_v16 (W1 m ρ c)).trans ?_
  rw [v12_1 m ρ c, v15_1 m ρ c, cst3_1 m ρ c]
  rfl

/-! ## The index words at the two gather/scatter stretches -/

/-- The source words at the first kernel's entry … -/
theorem src_3 : (W3 m ρ c (Proc.devRef .tc main_v3) : IVec S1700000 32) = Cert.ReferenceIdeal.ReadP.val_main_v3 (F := Ideal) (m ((c : Thread nD τ).loc main_arg1)) :=
  calc W3 m ρ c (Proc.devRef .tc main_v3)
    _ = W2 m ρ c (Proc.devRef .tc main_v3) := keep3 m ρ c main_v3 (by decide)
    _ = W1 m ρ c (Proc.devRef .tc main_v3) := keep2 m ρ c main_v3 (by decide)
    _ = _ := computed_v3 (W0 m ρ c)

/-- … and the destination words. -/
theorem dst_3 : (W3 m ρ c (Proc.devRef .tc main_v6) : IVec S1700000 32) = Cert.ReferenceIdeal.ReadP.val_main_v6 (F := Ideal) (m ((c : Thread nD τ).loc main_arg1)) :=
  calc W3 m ρ c (Proc.devRef .tc main_v6)
    _ = W2 m ρ c (Proc.devRef .tc main_v6) := keep3 m ρ c main_v6 (by decide)
    _ = W1 m ρ c (Proc.devRef .tc main_v6) := keep2 m ρ c main_v6 (by decide)
    _ = _ := computed_v6 (W0 m ρ c)

/-- The first kernel has neither among its arrays: at its exit they are as at its entry. -/
theorem src_4 : (W4 m ρ c (Proc.devRef .tc main_v3) : IVec S1700000 32) = Cert.ReferenceIdeal.ReadP.val_main_v3 (F := Ideal) (m ((c : Thread nD τ).loc main_arg1)) :=
  (W4_of_ne m ρ c main_v3 (by decide)).trans (src_3 m ρ c)
theorem dst_4 : (W4 m ρ c (Proc.devRef .tc main_v6) : IVec S1700000 32) = Cert.ReferenceIdeal.ReadP.val_main_v6 (F := Ideal) (m ((c : Thread nD τ).loc main_arg1)) :=
  (W4_of_ne m ρ c main_v6 (by decide)).trans (dst_3 m ρ c)

/-- Nor does the stretch after it write them, nor has the second kernel them among its arrays. -/
theorem src_6 : (W6 m ρ c (Proc.devRef .tc main_v3) : IVec S1700000 32) = Cert.ReferenceIdeal.ReadP.val_main_v3 (F := Ideal) (m ((c : Thread nD τ).loc main_arg1)) :=
  ((W6_of_ne m ρ c main_v3 (by decide)).trans (keep5 m ρ c main_v3 (by decide))).trans (src_4 m ρ c)
theorem dst_6 : (W6 m ρ c (Proc.devRef .tc main_v6) : IVec S1700000 32) = Cert.ReferenceIdeal.ReadP.val_main_v6 (F := Ideal) (m ((c : Thread nD τ).loc main_arg1)) :=
  ((W6_of_ne m ρ c main_v6 (by decide)).trans (keep5 m ρ c main_v6 (by decide))).trans (dst_4 m ρ c)

/-! ## The arguments a kernel reads are as launched -/

/-- The feature matrix at the first kernel's entry. -/
theorem arg0_3 : V3 m ρ c main_arg0 = m ((c : Thread nD τ).loc main_arg0) :=
  calc W3 m ρ c (Proc.devRef .tc main_arg0)
    _ = W2 m ρ c (Proc.devRef .tc main_arg0) := keep3 m ρ c main_arg0 (by decide)
    _ = W1 m ρ c (Proc.devRef .tc main_arg0) := keep2 m ρ c main_arg0 (by decide)
    _ = W0 m ρ c (Proc.devRef .tc main_arg0) := keep1 m ρ c main_arg0 (by decide)
    _ = m ((c : Thread nD τ).loc main_arg0) := rfl

/-- The first weight matrix at the first kernel's entry. -/
theorem arg2_3 : V3 m ρ c main_arg2 = m ((c : Thread nD τ).loc main_arg2) :=
  calc W3 m ρ c (Proc.devRef .tc main_arg2)
    _ = W2 m ρ c (Proc.devRef .tc main_arg2) := keep3 m ρ c main_arg2 (by decide)
    _ = W1 m ρ c (Proc.devRef .tc main_arg2) := keep2 m ρ c main_arg2 (by decide)
    _ = W0 m ρ c (Proc.devRef .tc main_arg2) := keep1 m ρ c main_arg2 (by decide)
    _ = m ((c : Thread nD τ).loc main_arg2) := rfl

/-- The second weight matrix at the second kernel's entry. -/
theorem arg4_5 : V5 m ρ c main_arg4 = m ((c : Thread nD τ).loc main_arg4) :=
  calc W5 m ρ c (Proc.devRef .tc main_arg4)
    _ = W4 m ρ c (Proc.devRef .tc main_arg4) := keep5 m ρ c main_arg4 (by decide)
    _ = W3 m ρ c (Proc.devRef .tc main_arg4) := W4_of_ne m ρ c main_arg4 (by decide)
    _ = W2 m ρ c (Proc.devRef .tc main_arg4) := keep3 m ρ c main_arg4 (by decide)
    _ = W1 m ρ c (Proc.devRef .tc main_arg4) := keep2 m ρ c main_arg4 (by decide)
    _ = W0 m ρ c (Proc.devRef .tc main_arg4) := keep1 m ρ c main_arg4 (by decide)
    _ = m ((c : Thread nD τ).loc main_arg4) := rfl

/-- The head's weight column at the third kernel's entry. -/
theorem arg6_7 : V7 m ρ c main_arg6 = m ((c : Thread nD τ).loc main_arg6) :=
  calc W7 m ρ c (Proc.devRef .tc main_arg6)
    _ = W6 m ρ c (Proc.devRef .tc main_arg6) := keep7 m ρ c main_arg6 (by decide)
    _ = W5 m ρ c (Proc.devRef .tc main_arg6) := W6_of_ne m ρ c main_arg6 (by decide)
    _ = W4 m ρ c (Proc.devRef .tc main_arg6) := keep5 m ρ c main_arg6 (by decide)
    _ = W3 m ρ c (Proc.devRef .tc main_arg6) := W4_of_ne m ρ c main_arg6 (by decide)
    _ = W2 m ρ c (Proc.devRef .tc main_arg6) := keep3 m ρ c main_arg6 (by decide)
    _ = W1 m ρ c (Proc.devRef .tc main_arg6) := keep2 m ρ c main_arg6 (by decide)
    _ = W0 m ρ c (Proc.devRef .tc main_arg6) := keep1 m ρ c main_arg6 (by decide)
    _ = m ((c : Thread nD τ).loc main_arg6) := rfl

/-! ## The inverse square root of the in-degree, as a column, at each kernel's entry -/

/-- The column at the first kernel's entry is the vector the first two stretches compute, re-laid. -/
theorem dinv_col_3 : (V3 m ρ c main_v17 : S100000x1.Idx → EReal)
    = shapeCast S100000x1 (Cert.ReferenceIdeal.ReadP.val_main_v16 (F := Ideal) (m ((c : Thread nD τ).loc main_arg1))) shapeCasts_S100000_S100000x1 :=
  calc W3 m ρ c (Proc.devRef .tc main_v17)
    _ = shapeCast S100000x1 (W2 m ρ c (Proc.devRef .tc main_v16) : S100000.Idx → EReal) shapeCasts_S100000_S100000x1 := relaid_v17 (W2 m ρ c)
    _ = _ := congrArg (fun x => shapeCast S100000x1 x shapeCasts_S100000_S100000x1) (v16_2 m ρ c)

/-- Entry (i, 0) of the column is entry i of the vector. -/
theorem dinv_3 (i : Fin 100000) : (V3 m ρ c main_v17 : S100000x1.Idx → EReal) (ix2 i (0 : Fin 1))
    = Cert.ReferenceIdeal.ReadP.val_main_v16 (F := Ideal) (m ((c : Thread nD τ).loc main_arg1)) (ix1 i) := by
  rw [dinv_col_3]
  exact shapeCast_a_a1_apply _ _ i (0 : Fin 1)

/-- The first kernel only reads the column (input window 2), and the next stretch does not write it. -/
theorem dinv_col_5 : V5 m ρ c main_v17 = V3 m ρ c main_v17 :=
  calc W5 m ρ c (Proc.devRef .tc main_v17)
    _ = W4 m ρ c (Proc.devRef .tc main_v17) := keep5 m ρ c main_v17 (by decide)
    _ = W3 m ρ c (Proc.devRef .tc main_v17) :=
        (W4_arr m ρ c 2).trans (((dat0 (V3 m ρ) c).arrAt_in 2 rfl _).trans (A_eq0 (V3 m ρ) c 2))

theorem dinv_5 (i : Fin 100000) : (V5 m ρ c main_v17 : S100000x1.Idx → EReal) (ix2 i (0 : Fin 1))
    = Cert.ReferenceIdeal.ReadP.val_main_v16 (F := Ideal) (m ((c : Thread nD τ).loc main_arg1)) (ix1 i) := by
  rw [dinv_col_5]
  exact dinv_3 m ρ c i

/-- The second kernel only reads it too (input window 1), and the last stretch does not write it. -/
theorem dinv_col_7 : V7 m ρ c main_v17 = V3 m ρ c main_v17 :=
  calc W7 m ρ c (Proc.devRef .tc main_v17)
    _ = W6 m ρ c (Proc.devRef .tc main_v17) := keep7 m ρ c main_v17 (by decide)
    _ = W5 m ρ c (Proc.devRef .tc main_v17) :=
        (W6_arr m ρ c 1).trans (((dat1 (V5 m ρ) c).arrAt_in 1 rfl _).trans (A_eq1 (V5 m ρ) c 1))
    _ = W3 m ρ c (Proc.devRef .tc main_v17) := dinv_col_5 m ρ c

theorem dinv_7 (i : Fin 100000) : (V7 m ρ c main_v17 : S100000x1.Idx → EReal) (ix2 i (0 : Fin 1))
    = Cert.ReferenceIdeal.ReadP.val_main_v16 (F := Ideal) (m ((c : Thread nD τ).loc main_arg1)) (ix1 i) := by
  rw [dinv_col_7]
  exact dinv_3 m ρ c i

/-! ## The biases, laid out as rows -/

/-- An argument the first three stretches do not write is as launched at the first kernel's entry: used for the three
    bias vectors. -/
theorem launched_2 (b : Ref sig .tc)
    (h1 : ∀ y ∈ ([main_v0, main_v1, main_v2, main_v3, main_v4, main_v5, main_v6, main_cst, main_v7, main_cst_0, main_v8, main_v9, main_v10, main_cst_1, main_v11, main_v12, main_cst_2, main_v13, main_v14, main_v15, main_cst_3] : List (Ref sig .tc)), b ≠ y)
    (h2 : ∀ y ∈ ([main_call0_v0, main_call0_v1, main_v16] : List (Ref sig .tc)), b ≠ y) :
    W2 m ρ c (Proc.devRef .tc b) = W0 m ρ c (Proc.devRef .tc b) :=
  (keep2 m ρ c b h2).trans (keep1 m ρ c b h1)

/-- The first bias row at the first kernel's entry is the bias vector re-laid. -/
theorem b0_row_3 : (W3 m ρ c (Proc.devRef .tc main_v18) : S1x128.Idx → EReal)
    = shapeCast S1x128 (m ((c : Thread nD τ).loc main_arg3) : S128.Idx → EReal) shapeCasts_S128_S1x128 :=
  calc W3 m ρ c (Proc.devRef .tc main_v18)
    _ = shapeCast S1x128 (W2 m ρ c (Proc.devRef .tc main_arg3) : S128.Idx → EReal) shapeCasts_S128_S1x128 := relaid_v18 (W2 m ρ c)
    _ = _ := by rw [launched_2 m ρ c main_arg3 (by decide) (by decide)]

theorem b1_row_3 : (W3 m ρ c (Proc.devRef .tc main_v19) : S1x64.Idx → EReal)
    = shapeCast S1x64 (m ((c : Thread nD τ).loc main_arg5) : S64.Idx → EReal) shapeCasts_S64_S1x64 :=
  calc W3 m ρ c (Proc.devRef .tc main_v19)
    _ = shapeCast S1x64 (W2 m ρ c (Proc.devRef .tc main_arg5) : S64.Idx → EReal) shapeCasts_S64_S1x64 := relaid_v19 (W2 m ρ c)
    _ = _ := by rw [launched_2 m ρ c main_arg5 (by decide) (by decide)]

theorem bl_row_3 : (W3 m ρ c (Proc.devRef .tc main_v20) : S1x1.Idx → EReal)
    = shapeCast S1x1 (m ((c : Thread nD τ).loc main_arg7) : S1.Idx → EReal) shapeCasts_S1_S1x1 :=
  calc W3 m ρ c (Proc.devRef .tc main_v20)
    _ = shapeCast S1x1 (W2 m ρ c (Proc.devRef .tc main_arg7) : S1.Idx → EReal) shapeCasts_S1_S1x1 := relaid_v20 (W2 m ρ c)
    _ = _ := by rw [launched_2 m ρ c main_arg7 (by decide) (by decide)]

/-- The first bias row at the second kernel's entry: entry (0, k) is the bias vector's entry k. -/
theorem b0_5 (k : Fin 128) : (V5 m ρ c main_v18 : S1x128.Idx → EReal) (ix2 (0 : Fin 1) k)
    = (m ((c : Thread nD τ).loc main_arg3) : S128.Idx → EReal) (ix1 k) := by
  have e : (V5 m ρ c main_v18 : S1x128.Idx → EReal) = W3 m ρ c (Proc.devRef .tc main_v18) :=
    (keep5 m ρ c main_v18 (by decide)).trans (W4_of_ne m ρ c main_v18 (by decide))
  rw [e, b0_row_3]
  exact shapeCast_a_1a_apply _ _ (0 : Fin 1) k

/-- The second bias row at the third kernel's entry. -/
theorem b1_7 (k : Fin 64) : (V7 m ρ c main_v19 : S1x64.Idx → EReal) (ix2 (0 : Fin 1) k)
    = (m ((c : Thread nD τ).loc main_arg5) : S64.Idx → EReal) (ix1 k) := by
  have e : (V7 m ρ c main_v19 : S1x64.Idx → EReal) = W3 m ρ c (Proc.devRef .tc main_v19) :=
    ((((keep7 m ρ c main_v19 (by decide)).trans (W6_of_ne m ρ c main_v19 (by decide))).trans
      (keep5 m ρ c main_v19 (by decide))).trans (W4_of_ne m ρ c main_v19 (by decide)))
  rw [e, b1_row_3]
  exact shapeCast_a_1a_apply _ _ (0 : Fin 1) k

/-- The head's bias at the third kernel's entry. -/
theorem bl_7 : (V7 m ρ c main_v20 : S1x1.Idx → EReal) (ix2 (0 : Fin 1) (0 : Fin 1))
    = (m ((c : Thread nD τ).loc main_arg7) : S1.Idx → EReal) (ix1 (0 : Fin 1)) := by
  have e : (V7 m ρ c main_v20 : S1x1.Idx → EReal) = W3 m ρ c (Proc.devRef .tc main_v20) :=
    ((((keep7 m ρ c main_v20 (by decide)).trans (W6_of_ne m ρ c main_v20 (by decide))).trans
      (keep5 m ρ c main_v20 (by decide))).trans (W4_of_ne m ρ c main_v20 (by decide)))
  rw [e, bl_row_3]
  exact shapeCast_a_1a_apply _ _ (0 : Fin 1) (0 : Fin 1)

end Cert.KernelIdeal.Walk

end
-- ==== Proof.LibFiniteReals.lean ====
/-
  Finite values in the extended reals. An extended real is finite when it is the reading of a real number; the finite
  values are closed under sum, difference, product, negation, maximum, minimum and finite sums, and on them the
  product distributes over sums, finite sums included — the laws that fail at the infinities (where a product with zero
  or a sum of opposite infinities takes a conventional value) and that an argument moving a factor across a sum, or
  folding a bias through a matrix product, has to invoke.
-/
import Idealize.ShloMosaic.PureOps.Ideal

namespace FiniteReals

open Finset

/-- `x` is the reading of a real number. -/
def IsReal (x : EReal) : Prop := ∃ r : ℝ, x = (r : EReal)

theorem isReal_coe (r : ℝ) : IsReal (r : EReal) := ⟨r, rfl⟩

theorem isReal_zero : IsReal (0 : EReal) := ⟨0, EReal.coe_zero.symm⟩

/-- Finite is: neither infinity. -/
theorem isReal_iff {x : EReal} : IsReal x ↔ x ≠ ⊤ ∧ x ≠ ⊥ :=
  ⟨fun ⟨r, h⟩ => h ▸ ⟨EReal.coe_ne_top r, EReal.coe_ne_bot r⟩,
   fun ⟨h1, h2⟩ => ⟨x.toReal, (EReal.coe_toReal h1 h2).symm⟩⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b)).symm⟩

theorem IsReal.min {x y : EReal} (hx : IsReal x) (hy : IsReal y) : IsReal (min x y) := by
  obtain ⟨a, rfl⟩ := hx; obtain ⟨b, rfl⟩ := hy
  exact ⟨Min.min a b, (EReal.coe_strictMono.monotone.map_min (a := a) (b := b)).symm⟩

/-- A finite sum of finite values is finite. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-! ## Distributivity on finite values -/

theorem mul_add_of_isReal {x y z : EReal} (hx : IsReal x) (hy : IsReal y) (hz : IsReal z) : x * (y + z) = x * y + x * z := by
  obtain ⟨a, rfl⟩ := hx; obtain ⟨b, rfl⟩ := hy; obtain ⟨c, rfl⟩ := hz
  rw [← EReal.coe_add, ← EReal.coe_mul, ← EReal.coe_mul, ← EReal.coe_mul, ← EReal.coe_add, mul_add]

theorem add_mul_of_isReal {x y z : EReal} (hx : IsReal x) (hy : IsReal y) (hz : IsReal z) : (x + y) * z = x * z + y * z := by
  rw [mul_comm, mul_add_of_isReal hz hx hy, mul_comm z x, mul_comm z y]

/-- A finite factor moves across a finite sum of finite values. -/
theorem sum_mul_of_isReal {ι : Type*} (s : Finset ι) (f : ι → EReal) (x : EReal) (hf : ∀ i ∈ s, IsReal (f i)) (hx : IsReal x) :
    (∑ i ∈ s, f i) * x = ∑ i ∈ s, f i * x := by
  classical
  induction s using Finset.induction_on with
  | empty => simp
  | insert a s ha ih =>
    rw [Finset.sum_insert ha, Finset.sum_insert ha,
      add_mul_of_isReal (hf a (Finset.mem_insert_self a s)) (IsReal.sum s f fun i hi => hf i (Finset.mem_insert_of_mem hi)) hx,
      ih fun i hi => hf i (Finset.mem_insert_of_mem hi)]

end FiniteReals
-- ==== Proof.Spec.lean ====
/-
  The two-layer graph convolution with a linear head, as functions of coordinates on the extended reals.

  A graph on 100000 nodes is given by 1700000 edge slots. Slot `e` carries two index words: the source word `sn e`
  (already wrapped: a negative word has had the node count added) from which a gather of whole rows takes row
  `rowAt (sn e)` (the word read signed and clamped into the array), and the raw destination word `dst e`, which an
  accumulating scatter reads signed: slot `e` lands in row `i` exactly when `(dst e).toInt = i`, and is dropped when
  no row matches. `dinv` is the inverse square root of the in-degree.

  One layer, for a node feature matrix `h`, a weight matrix `W` and a bias `b`:

    reference   max (∑_{e → i} (h·W)[s e, c] · (dinv[s e] · dinv[d e]) + b[c]) 0      (`d e` the wrapped destination row)
    kernel      max ((∑_{e → i} (h·W)[s e, c] · dinv[s e]) · dinv[i] + b[c]) 0

  The kernel scales a row by its own `dinv` before the gather and by the destination's `dinv` after the scatter. Since
  every slot landing in row `i` has `d e = i`, the two agree as soon as the destination factor may be moved out of the
  sum: distributivity, which on the extended reals needs every term finite (`layer_eq`).
-/
import Idealize.ShloMosaic.PureOps.Ideal
import proofs.«165097_j8383776162491_2_alg».proof.Proof.LibFiniteReals

noncomputable section

open scoped BigOperators
open FiniteReals

namespace Cert.Gcn

/-- The row a gather of whole rows of a 100000-row array takes for an index word: the word read signed, clamped into
    `[0, 99999]`. -/
def rowAt (w : BitVec 32) : Fin 100000 := ⟨min w.toInt.toNat (100000 - 1), by omega⟩

theorem rowAt_of_toInt {w : BitVec 32} {i : Fin 100000} (h : w.toInt = (i.val : ℤ)) : rowAt w = i := by
  apply Fin.ext
  show min w.toInt.toNat (100000 - 1) = i.val
  rw [h, Int.toNat_natCast]
  have := i.isLt
  omega

/-- The matrix product, entry by entry. -/
def mm {A K C : ℕ} (a : Fin A → Fin K → EReal) (w : Fin K → Fin C → EReal) (i : Fin A) (c : Fin C) : EReal :=
  ∑ k : Fin K, a i k * w k c

section layers

variable (sn dn dst : Fin 1700000 → BitVec 32) (dinv : Fin 100000 → EReal)

/-- The slots that land in row `i`. -/
def into (i : Fin 100000) : Finset (Fin 1700000) :=
  Finset.univ.filter fun e : Fin 1700000 => (dst e).toInt = (i.val : ℤ)

/-- Neighbour sum: row `i` collects the source rows of the slots landing in it. -/
def nsum {C : ℕ} (f : Fin 100000 → Fin C → EReal) (i : Fin 100000) (c : Fin C) : EReal :=
  ∑ e ∈ into dst i, f (rowAt (sn e)) c

/-- A row scaled by its own `dinv` (the kernel's scaling before the gather). -/
def scaled {C : ℕ} (f : Fin 100000 → Fin C → EReal) (j : Fin 100000) (c : Fin C) : EReal := f j c * dinv j

/-- The kernel's scaling by the destination's `dinv` after the scatter, the bias, and the floor at zero. -/
def finish {C : ℕ} (agg : Fin 100000 → Fin C → EReal) (b : Fin C → EReal) (i : Fin 100000) (c : Fin C) : EReal :=
  max (agg i c * dinv i + b c) 0

/-- One layer as the kernel computes it. -/
def kLayer {K C : ℕ} (h : Fin 100000 → Fin K → EReal) (W : Fin K → Fin C → EReal) (b : Fin C → EReal) :
    Fin 100000 → Fin C → EReal :=
  finish dinv (nsum sn dst (scaled dinv (mm h W))) b

/-- One layer as the reference computes it: each slot's message is scaled by both ends' `dinv` before the sum. -/
def rLayer {K C : ℕ} (h : Fin 100000 → Fin K → EReal) (W : Fin K → Fin C → EReal) (b : Fin C → EReal)
    (i : Fin 100000) (c : Fin C) : EReal :=
  max ((∑ e ∈ into dst i, mm h W (rowAt (sn e)) c * (dinv (rowAt (sn e)) * dinv (rowAt (dn e)))) + b c) 0

/-- The linear head and the pair `(-logit, logit)`. -/
def head (h : Fin 100000 → Fin 64 → EReal) (Wl : Fin 64 → Fin 1 → EReal) (bl : EReal) (i : Fin 100000) : EReal :=
  mm h Wl i 0 + bl

def pair (lg : Fin 100000 → EReal) (i : Fin 100000) (q : Fin 2) : EReal := if q.val = 0 then -(lg i) else lg i

/-- The whole network as the kernel computes it. -/
def kNet (x : Fin 100000 → Fin 128 → EReal) (W0 : Fin 128 → Fin 128 → EReal) (b0 : Fin 128 → EReal)
    (W1 : Fin 128 → Fin 64 → EReal) (b1 : Fin 64 → EReal) (Wl : Fin 64 → Fin 1 → EReal) (bl : EReal) :
    Fin 100000 → Fin 2 → EReal :=
  pair (head (kLayer sn dst dinv (kLayer sn dst dinv x W0 b0) W1 b1) Wl bl)

/-- The whole network as the reference computes it. -/
def rNet (x : Fin 100000 → Fin 128 → EReal) (W0 : Fin 128 → Fin 128 → EReal) (b0 : Fin 128 → EReal)
    (W1 : Fin 128 → Fin 64 → EReal) (b1 : Fin 64 → EReal) (Wl : Fin 64 → Fin 1 → EReal) (bl : EReal) :
    Fin 100000 → Fin 2 → EReal :=
  pair (head (rLayer sn dn dst dinv (rLayer sn dn dst dinv x W0 b0) W1 b1) Wl bl)

/-! ## The two layers agree on finite data -/

theorem isReal_mm {A K C : ℕ} {a : Fin A → Fin K → EReal} {w : Fin K → Fin C → EReal}
    (ha : ∀ i k, IsReal (a i k)) (hw : ∀ k c, IsReal (w k c)) (i : Fin A) (c : Fin C) : IsReal (mm a w i c) :=
  IsReal.sum _ _ fun k _ => (ha i k).mul (hw k c)

/-- A slot landing in row `i` has wrapped destination row `i`: the hypothesis under which the layers agree. -/
def Lands : Prop := ∀ (e : Fin 1700000) (i : Fin 100000), (dst e).toInt = (i.val : ℤ) → rowAt (dn e) = i

theorem layer_eq {K C : ℕ} (hl : Lands dn dst) (hd : ∀ j, IsReal (dinv j))
    {h : Fin 100000 → Fin K → EReal} {W : Fin K → Fin C → EReal} (hh : ∀ i k, IsReal (h i k)) (hW : ∀ k c, IsReal (W k c))
    (b : Fin C → EReal) : kLayer sn dst dinv h W b = rLayer sn dn dst dinv h W b := by
  funext i c
  have key : (∑ e ∈ into dst i, mm h W (rowAt (sn e)) c * dinv (rowAt (sn e))) * dinv i
      = ∑ e ∈ into dst i, mm h W (rowAt (sn e)) c * (dinv (rowAt (sn e)) * dinv (rowAt (dn e))) := by
    rw [sum_mul_of_isReal _ _ _ (fun e _ => (isReal_mm hh hW _ _).mul (hd _)) (hd i)]
    refine Finset.sum_congr rfl fun e he => ?_
    rw [hl e i (Finset.mem_filter.mp he).2, mul_assoc]
  show max ((∑ e ∈ into dst i, mm h W (rowAt (sn e)) c * dinv (rowAt (sn e))) * dinv i + b c) 0 = _
  rw [key]
  rfl

theorem isReal_kLayer {K C : ℕ} (hd : ∀ j, IsReal (dinv j))
    {h : Fin 100000 → Fin K → EReal} {W : Fin K → Fin C → EReal} (hh : ∀ i k, IsReal (h i k)) (hW : ∀ k c, IsReal (W k c))
    {b : Fin C → EReal} (hb : ∀ c, IsReal (b c)) (i : Fin 100000) (c : Fin C) : IsReal (kLayer sn dst dinv h W b i c) := by
  unfold kLayer finish nsum scaled
  exact (((IsReal.sum _ _ fun e _ => (isReal_mm hh hW _ _).mul (hd _)).mul (hd i)).add (hb c)).max isReal_zero

/-- The kernel's network is the reference's on finite features, weights and biases (the head needs no finiteness). -/
theorem net_eq (hl : Lands dn dst) (hd : ∀ j, IsReal (dinv j))
    {x : Fin 100000 → Fin 128 → EReal} {W0 : Fin 128 → Fin 128 → EReal} {b0 : Fin 128 → EReal}
    {W1 : Fin 128 → Fin 64 → EReal} (b1 : Fin 64 → EReal) (Wl : Fin 64 → Fin 1 → EReal) (bl : EReal)
    (hx : ∀ i k, IsReal (x i k)) (hW0 : ∀ k c, IsReal (W0 k c)) (hb0 : ∀ c, IsReal (b0 c)) (hW1 : ∀ k c, IsReal (W1 k c)) :
    kNet sn dst dinv x W0 b0 W1 b1 Wl bl = rNet sn dn dst dinv x W0 b0 W1 b1 Wl bl := by
  unfold kNet rNet
  rw [← layer_eq sn dn dst dinv hl hd hx hW0 b0,
    layer_eq sn dn dst dinv hl hd (isReal_kLayer sn dst dinv hd hx hW0 hb0) hW1 b1]

end layers

end Cert.Gcn

end
-- ==== Proof.LibRowGather.lean ====
/- A row gather read at coordinates, for any extents and any element type: a `stablehlo.gather` of a matrix `[N, C]` at a
   column `[R, 1]` of start indices, with offset axis [1], collapsed axis [0], start index map [0] and slices `[1, C]` —
   what taking whole rows of a table at an integer vector lowers to. Result element `(r, c)` is the matrix at row
   `idx[r, 0]`, read as a signed integer and clamped into `[0, N − 1]`, and column `c`. When the start index is known to lie
   in `[0, N − 1]` the clamp is the identity (`gather_rows_apply_of_lt`). Nothing here depends on a particular program: a
   printed record with these lists is `rowTakeDims` by `rfl`. -/
import Idealize.ShloMosaic.PureOps.Ideal
import Idealize.ShloMosaic.Lib.ValueIdx

noncomputable section

open Idealize.ShloMosaic Idealize.ShloMosaic.ValueIdx

namespace Cert.Lib.RowGather

variable {α : Type}

/-- The dimension numbers of a row gather for an operand `[N, C]`, start indices `[R, 1]` and a result `[R, C]`; their
    conditions `wf` are decided on a program's literal shapes. -/
abbrev rowTakeDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowTakeDims N R C wf) x idx (ix2 r c)
      = x (ix2 (⟨min (idx (ix2 r (0 : Fin 1))).toInt.toNat (N - 1), by omega⟩ : Fin N) c) := by
  unfold Host.gather
  congr 1
  funext a
  refine Fin.ext ?_
  match a with
  | ⟨0, _⟩ =>
    show (rowTakeDims N R C wf).start (ix2 r c) idx 0 + (rowTakeDims N R C wf).batchCoord (ix2 r c) 0
        + (rowTakeDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N R C wf).startIndexMap from List.mem_singleton.mpr rfl)]
    have hsi : (rowTakeDims N R C wf).siIdx (ix2 r c) ⟨List.idxOf (0 : Fin 2) (rowTakeDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowTakeDims N R C wf).start (ix2 r c) idx 1 + (rowTakeDims N R C wf).batchCoord (ix2 r c) 1
        + (rowTakeDims N R C wf).offCoord (ix2 r c) 1 = c.val
    rw [GatherDims.batchCoord_eq_zero _ _ _ List.not_mem_nil]
    unfold GatherDims.start
    rw [dif_neg (show (1 : Fin 2) ∉ (rowTakeDims N R C wf).startIndexMap from (by decide : (1 : Fin 2) ∉ ([0] : List (Fin 2))))]
    unfold GatherDims.offCoord
    rw [dif_pos (show (1 : Fin 2) ∈ (rowTakeDims N R C wf).sKept from
      ((rowTakeDims N R C wf).mem_sKept 1).mpr ⟨(by decide : (1 : Fin 2) ∉ ([0] : List (Fin 2))), List.not_mem_nil⟩)]
    simp only [Nat.zero_add, Nat.add_zero]
    rfl

/-- The same read when the start index, as a signed integer, is a natural number below `N`: the clamp does nothing. -/
theorem gather_rows_apply_of_lt {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) (q : Fin N)
    (hq : (idx (ix2 r (0 : Fin 1))).toInt = (q.val : ℤ)) :
    Host.gather (rowTakeDims N R C wf) x idx (ix2 r c) = x (ix2 q c) := by
  rw [gather_rows_apply hN wf x idx r c]
  congr 2
  refine Fin.ext ?_
  show min (idx (ix2 r (0 : Fin 1))).toInt.toNat (N - 1) = q.val
  rw [hq, Int.toNat_natCast]
  have := q.isLt
  omega

end Cert.Lib.RowGather

end
-- ==== Proof.LibScatterRows.lean ====
/- An accumulating row scatter read at coordinates, for any extents, on the extended reals: a `stablehlo.scatter` with
   an `add` body of updates `[R, C]` into a matrix `[N, C]` at a column `[R, 1]` of row indices (update window axis [1],
   inserted window axis [0], scatter-dims-to-operand-dims [0], index vector axis 1) — what adding whole rows into a table
   at an integer vector lowers to, a segment sum. Result element `(r, c)` is the matrix there plus the sum of the updates
   `(e, c)` over the rows `e` whose index word `idx[e, 0]`, read as a signed integer, is `r`; an index that names no row
   (negative, or `N` and above) contributes nothing — nothing is clamped. The rank-1 variant (updates `[R]` into a vector
   `[N]`, no window axis) is stated beside it. First the general fact both rest on: an update index lands at an operand
   index exactly when, on every axis, start plus window coordinate is that index's coordinate. Nothing here depends on a
   particular program: a printed record with these lists is `rowScatterDims` / `vecScatterDims` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.ScatterRows

/-- An update index `j` lands at the operand index `i` exactly when on every operand axis the window's start (read signed
    off the scatter indices) plus the window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    by_cases hh : ∀ a, 0 ≤ d.start j idx a + d.window j a ∧ d.start j idx a + d.window j a < s.size a
    · rw [dif_pos hh] at h
      have h' := Option.some.inj h
      intro a
      rw [← h']
      have := (hh a).1
      show _ = (((d.start j idx a + (d.window j a : ℤ)).toNat : ℕ) : ℤ)
      omega
    · rw [dif_neg hh] at h
      cases h
  · intro h
    have hh : ∀ a, 0 ≤ d.start j idx a + d.window j a ∧ d.start j idx a + d.window j a < s.size a := by
      intro a
      rw [h a]
      have := (i a).isLt
      omega
    rw [dif_pos hh]
    congr 1
    funext a
    refine Fin.ext ?_
    show (d.start j idx a + (d.window j a : ℤ)).toNat = (i a).val
    rw [h a]
    exact Int.toNat_natCast _

/-! ## Rows into a matrix -/

/-- The dimension numbers of an accumulating row scatter for an operand `[N, C]`, scatter indices `[R, 1]` and updates
    `[R, C]`; their conditions `wf` are decided on a program's literal shapes. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section rows

variable {N R C w : Nat} (wf : ScatterDims.WF ⟨2, ![N, C]⟩ ⟨2, ![R, 1]⟩ ⟨2, ![R, C]⟩ [1] [0] [0] 1)

/-- On the row axis the window starts at the update row's index word, read signed. -/
theorem rows_start_zero (idx : IVec ⟨2, ![R, 1]⟩ w) (e : Fin R) (c' : Fin C) :
    (rowScatterDims N R C wf).start (ix2 e c') idx 0 = (idx (ix2 e (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 e c')
      ⟨List.idxOf (0 : Fin 2) (rowScatterDims N R C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0: the index vector names the row axis only. -/
theorem rows_start_one (idx : IVec ⟨2, ![R, 1]⟩ w) (e : Fin R) (c' : Fin C) :
    (rowScatterDims N R C wf).start (ix2 e c') idx 1 = 0 := by
  unfold ScatterDims.start
  rw [dif_neg (show (1 : Fin 2) ∉ (rowScatterDims N R C wf).scatterDimsToOperandDims from
    (by decide : (1 : Fin 2) ∉ ([0] : List (Fin 2))))]

/-- The row axis is inserted: its window coordinate is 0. -/
theorem rows_window_zero (e : Fin R) (c' : Fin C) : (rowScatterDims N R C wf).window (ix2 e c') 0 = 0 := by
  unfold ScatterDims.window
  rw [dif_neg (show (0 : Fin 2) ∉ (rowScatterDims N R C wf).sKept from (by decide : (0 : Fin 2) ∉ ([1] : List (Fin 2))))]

/-- The column axis carries the update's column. -/
theorem rows_window_one (e : Fin R) (c' : Fin C) : (rowScatterDims N R C wf).window (ix2 e c') 1 = c'.val := by
  unfold ScatterDims.window
  rw [dif_pos (show (1 : Fin 2) ∈ (rowScatterDims N R C wf).sKept from (by decide : (1 : Fin 2) ∈ ([1] : List (Fin 2))))]
  rfl

/-- Update `(e, c')` lands at `(r, c)` exactly when row `e`'s index word, read signed, is `r` and the columns agree. -/
theorem rows_resultIdx?_iff (idx : IVec ⟨2, ![R, 1]⟩ w) (e : Fin R) (c' : Fin C) (r : Fin N) (c : Fin C) :
    (rowScatterDims N R C wf).resultIdx? (ix2 e c') idx = some (ix2 r c)
      ↔ (idx (ix2 e (0 : Fin 1))).toInt = (r.val : ℤ) ∧ c' = c := by
  rw [resultIdx?_eq_some_iff, Fin.forall_fin_two, rows_start_zero, rows_start_one, rows_window_zero, rows_window_one]
  show (idx (ix2 e (0 : Fin 1))).toInt + ((0 : ℕ) : ℤ) = (r.val : ℤ) ∧ (0 : ℤ) + (c'.val : ℤ) = (c.val : ℤ) ↔ _
  constructor
  · rintro ⟨h0, h1⟩
    exact ⟨by omega, Fin.ext (by omega)⟩
  · rintro ⟨h0, h1⟩
    subst h1
    exact ⟨by omega, by omega⟩

/-- THE ACCUMULATING ROW SCATTER READ AT `(r, c)`: the operand there plus the updates `(e, c)` of the rows `e` whose
    index word, read signed, is `r`. -/
theorem scatterAdd_rows_apply {φ : FTy} (x : FVec Ideal ⟨2, ![N, C]⟩ φ) (idx : IVec ⟨2, ![R, 1]⟩ w)
    (upd : FVec Ideal ⟨2, ![R, C]⟩ φ) (r : Fin N) (c : Fin C) :
    Host.scatterAdd (F := Ideal) (rowScatterDims N R C wf) x idx upd (ix2 r c)
      = x (ix2 r c) + ∑ e ∈ Finset.univ.filter (fun e : Fin R => (idx (ix2 e (0 : Fin 1))).toInt = (r.val : ℤ)),
          upd (ix2 e c) := by
  show x (ix2 r c) + ∑ j ∈ Finset.univ.filter
      (fun j => (rowScatterDims N R C wf).resultIdx? j idx = some (ix2 r c)), upd j = _
  congr 1
  rw [Finset.sum_filter, sum_idx2, Finset.sum_filter]
  refine Finset.sum_congr rfl fun e _ => ?_
  simp only [rows_resultIdx?_iff]
  by_cases he : (idx (ix2 e (0 : Fin 1))).toInt = (r.val : ℤ)
  · simp only [he, true_and, if_true]
    rw [Finset.sum_ite_eq' Finset.univ c fun c' => upd (ix2 e c')]
    simp
  · simp only [he, false_and, if_false, Finset.sum_const_zero]

end rows

/-! ## Scalars into a vector -/

/-- The dimension numbers of an accumulating scatter of scalars for an operand `[N]`, scatter indices `[R, 1]` and updates
    `[R]`; their conditions `wf` are decided on a program's literal shapes. -/
abbrev vecScatterDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section vec

variable {N R w : Nat} (wf : ScatterDims.WF ⟨1, ![N]⟩ ⟨2, ![R, 1]⟩ ⟨1, ![R]⟩ [] [0] [0] 1)

/-- The window starts at the update's index word, read signed. -/
theorem vec_start_zero (idx : IVec ⟨2, ![R, 1]⟩ w) (e : Fin R) :
    (vecScatterDims N R wf).start (ix1 e) idx 0 = (idx (ix2 e (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 e)
      ⟨List.idxOf (0 : Fin 1) (vecScatterDims N R wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: its window coordinate is 0. -/
theorem vec_window_zero (e : Fin R) : (vecScatterDims N R wf).window (ix1 e) 0 = 0 := by
  unfold ScatterDims.window
  rw [dif_neg (show (0 : Fin 1) ∉ (vecScatterDims N R wf).sKept from (by decide : (0 : Fin 1) ∉ ([] : List (Fin 1))))]

/-- Update `e` lands at `r` exactly when its index word, read signed, is `r`. -/
theorem vec_resultIdx?_iff (idx : IVec ⟨2, ![R, 1]⟩ w) (e : Fin R) (r : Fin N) :
    (vecScatterDims N R wf).resultIdx? (ix1 e) idx = some (ix1 r) ↔ (idx (ix2 e (0 : Fin 1))).toInt = (r.val : ℤ) := by
  rw [resultIdx?_eq_some_iff, Fin.forall_fin_one, vec_start_zero, vec_window_zero]
  show (idx (ix2 e (0 : Fin 1))).toInt + ((0 : ℕ) : ℤ) = (r.val : ℤ) ↔ _
  constructor <;> intro h <;> omega

/-- The sum over a rank-1 index set is the sum over its coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-- THE ACCUMULATING SCATTER OF SCALARS READ AT `r`: the operand there plus the updates `e` whose index word, read signed,
    is `r`. -/
theorem scatterAdd_vec_apply {φ : FTy} (x : FVec Ideal ⟨1, ![N]⟩ φ) (idx : IVec ⟨2, ![R, 1]⟩ w)
    (upd : FVec Ideal ⟨1, ![R]⟩ φ) (r : Fin N) :
    Host.scatterAdd (F := Ideal) (vecScatterDims N R wf) x idx upd (ix1 r)
      = x (ix1 r) + ∑ e ∈ Finset.univ.filter (fun e : Fin R => (idx (ix2 e (0 : Fin 1))).toInt = (r.val : ℤ)),
          upd (ix1 e) := by
  show x (ix1 r) + ∑ j ∈ Finset.univ.filter
      (fun j => (vecScatterDims N R wf).resultIdx? j idx = some (ix1 r)), upd j = _
  congr 1
  rw [Finset.sum_filter, sum_idx1, Finset.sum_filter]
  refine Finset.sum_congr rfl fun e _ => ?_
  simp only [vec_resultIdx?_iff]

end vec

end Cert.Lib.ScatterRows

end
-- ==== Proof.HostStretch.lean ====
/-
  The host operations between two kernels: wrap the source words, gather whole rows of the previous kernel's output, and
  add them up into the rows their destination words name.

  For ANY contents `W` of the buffers on entry, the matrix such a stretch leaves is the neighbour sum of the specification:
  entry `(i, q)` is the sum, over the slots `e` whose destination word read signed is `i`, of the gathered matrix at
  row `rowAt (wrapped source word of e)` and column `q`. (The scatter starts from a zero matrix, and the change of float
  format after the gather is the identity on extended reals.)
-/
import proofs.«165097_j8383776162491_2_alg».proof.Proof.Gen.KernelIdeal.Frame
import proofs.«165097_j8383776162491_2_alg».proof.Proof.Spec
import proofs.«165097_j8383776162491_2_alg».proof.Proof.LibRowGather
import proofs.«165097_j8383776162491_2_alg».proof.Proof.LibScatterRows
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HostStretch

open scoped BigOperators
open Idealize.ShloMosaic Idealize.ShloMosaic.TcCoe Idealize.ShloMosaic.ValueIdx Idealize.ShloMosaic.StableHlo Idealize.SL.Sem
open Cert.KernelIdeal Cert.KernelIdeal.Gen Cert.Lib.RowGather Cert.Lib.ScatterRows

/-- The index words with the negative ones wrapped: a word below zero has the node count added. -/
def wrapped (s : IVec S1700000 32) : IVec S1700000 32 :=
  select (cmpi .slt s (broadcastInDim S1700000 ![] bcast_S_S1700000 (constantI S_ 32 0#32)))
    (addi s (broadcastInDim S1700000 ![] bcast_S_S1700000 (constantI S_ 32 100000#32))) s

/-- A vector of words laid out as a one-column matrix, read at `(e, 0)`. -/
theorem column_apply {w : ℕ} (v : IVec S1700000 w) (e : Fin 1700000) :
    broadcastInDim S1700000x1 ![0] bcast_S1700000_S1700000x1_0 v (ix2 e (0 : Fin 1)) = v (ix1 e) :=
  broadcastInDim_apply _ _ _ _ (ix1 e) fun a => by
    match a with
    | ⟨0, _⟩ => rfl

/-- A scalar spread over a matrix reads as the scalar everywhere. -/
theorem spread_zero_apply {s : Shape} (h : S_.BroadcastsInDim s (![] : Fin 0 → Fin s.rank)) (j : s.Idx) :
    broadcastInDim s ![] h (constant (F := Ideal) S_ .f32 0x00000000#32) j = 0 := by
  rw [broadcastInDim_apply _ _ _ _ (fun a => a.elim0) (fun a => a.elim0), constant_apply, Ideal.ofBits_zero_f32]

variable (W : Valuation τ sig (Elt Ideal))

/-! ## Between the first and the second kernel (128 columns) -/

theorem stretch1_term :
    (StableHlo.after (hostOps1 (F := Ideal)) W (Proc.devRef .tc main_v32) : S100000x128.Idx → EReal)
      = Host.scatterAdd (F := Ideal) scatter_S100000x128_S1700000x1_S1700000x128_1_0_0_1
          (broadcastInDim S100000x128 ![] bcast_S_S100000x128 (constant (F := Ideal) S_ .f32 0x00000000#32))
          (broadcastInDim S1700000x1 ![0] bcast_S1700000_S1700000x1_0 (W (Proc.devRef .tc main_v6)))
          (extf .f32 (Host.gather gather_S100000x128_S1700000x1_S1700000x128_1_0_n_n_0_1_1128 (W (Proc.devRef .tc main_v21))
            (broadcastInDim S1700000x1 ![0] bcast_S1700000_S1700000x1_0 (wrapped (W (Proc.devRef .tc main_v3))))) bitsLt_bf16_f32) := by
  unfold wrapped
  after_results

/-- The gather-then-scatter term itself, for any gathered matrix and index words, read at `(i, q)`. -/
theorem sum128_apply (d s : IVec S1700000 32) (f : FVec Ideal S100000x128 .bf16) (i : Fin 100000) (q : Fin 128) :
    Host.scatterAdd (F := Ideal) scatter_S100000x128_S1700000x1_S1700000x128_1_0_0_1
        (broadcastInDim S100000x128 ![] bcast_S_S100000x128 (constant (F := Ideal) S_ .f32 0x00000000#32))
        (broadcastInDim S1700000x1 ![0] bcast_S1700000_S1700000x1_0 d)
        (extf .f32 (Host.gather gather_S100000x128_S1700000x1_S1700000x128_1_0_n_n_0_1_1128 f
          (broadcastInDim S1700000x1 ![0] bcast_S1700000_S1700000x1_0 s)) bitsLt_bf16_f32) (ix2 i q)
      = Cert.Gcn.nsum (fun e => s (ix1 e)) (fun e => d (ix1 e)) (fun j c => f (ix2 j c)) i q := by
  rw [show scatter_S100000x128_S1700000x1_S1700000x128_1_0_0_1
      = rowScatterDims 100000 1700000 128 scatter_S100000x128_S1700000x1_S1700000x128_1_0_0_1_wf from rfl,
    scatterAdd_rows_apply, spread_zero_apply, zero_add]
  unfold Cert.Gcn.nsum Cert.Gcn.into
  refine Finset.sum_congr (by ext e; rw [Finset.mem_filter, Finset.mem_filter, column_apply]) fun e _ => ?_
  rw [extf_apply,
    show gather_S100000x128_S1700000x1_S1700000x128_1_0_n_n_0_1_1128
      = rowTakeDims 100000 1700000 128 gather_S100000x128_S1700000x1_S1700000x128_1_0_n_n_0_1_1128_wf from rfl,
    gather_rows_apply (by norm_num)]
  refine congrArg (fun r : Fin 100000 => f (ix2 r q)) (Fin.ext ?_)
  show min _ _ = min _ _
  rw [column_apply]

theorem stretch1_apply (i : Fin 100000) (q : Fin 128) :
    (StableHlo.after (hostOps1 (F := Ideal)) W (Proc.devRef .tc main_v32) : S100000x128.Idx → EReal) (ix2 i q)
      = Cert.Gcn.nsum (fun e => wrapped (W (Proc.devRef .tc main_v3)) (ix1 e)) (fun e => (W (Proc.devRef .tc main_v6) : IVec S1700000 32) (ix1 e))
          (fun j c => (W (Proc.devRef .tc main_v21) : S100000x128.Idx → EReal) (ix2 j c)) i q := by
  rw [stretch1_term W]
  exact sum128_apply _ _ _ i q

/-! ## Between the second and the third kernel (64 columns) -/

theorem stretch2_term :
    (StableHlo.after (hostOps2 (F := Ideal)) W (Proc.devRef .tc main_v44) : S100000x64.Idx → EReal)
      = Host.scatterAdd (F := Ideal) scatter_S100000x64_S1700000x1_S1700000x64_1_0_0_1
          (broadcastInDim S100000x64 ![] bcast_S_S100000x64 (constant (F := Ideal) S_ .f32 0x00000000#32))
          (broadcastInDim S1700000x1 ![0] bcast_S1700000_S1700000x1_0 (W (Proc.devRef .tc main_v6)))
          (extf .f32 (Host.gather gather_S100000x64_S1700000x1_S1700000x64_1_0_n_n_0_1_164 (W (Proc.devRef .tc main_v33))
            (broadcastInDim S1700000x1 ![0] bcast_S1700000_S1700000x1_0 (wrapped (W (Proc.devRef .tc main_v3))))) bitsLt_bf16_f32) := by
  unfold wrapped
  after_results

theorem sum64_apply (d s : IVec S1700000 32) (f : FVec Ideal S100000x64 .bf16) (i : Fin 100000) (q : Fin 64) :
    Host.scatterAdd (F := Ideal) scatter_S100000x64_S1700000x1_S1700000x64_1_0_0_1
        (broadcastInDim S100000x64 ![] bcast_S_S100000x64 (constant (F := Ideal) S_ .f32 0x00000000#32))
        (broadcastInDim S1700000x1 ![0] bcast_S1700000_S1700000x1_0 d)
        (extf .f32 (Host.gather gather_S100000x64_S1700000x1_S1700000x64_1_0_n_n_0_1_164 f
          (broadcastInDim S1700000x1 ![0] bcast_S1700000_S1700000x1_0 s)) bitsLt_bf16_f32) (ix2 i q)
      = Cert.Gcn.nsum (fun e => s (ix1 e)) (fun e => d (ix1 e)) (fun j c => f (ix2 j c)) i q := by
  rw [show scatter_S100000x64_S1700000x1_S1700000x64_1_0_0_1
      = rowScatterDims 100000 1700000 64 scatter_S100000x64_S1700000x1_S1700000x64_1_0_0_1_wf from rfl,
    scatterAdd_rows_apply, spread_zero_apply, zero_add]
  unfold Cert.Gcn.nsum Cert.Gcn.into
  refine Finset.sum_congr (by ext e; rw [Finset.mem_filter, Finset.mem_filter, column_apply]) fun e _ => ?_
  rw [extf_apply,
    show gather_S100000x64_S1700000x1_S1700000x64_1_0_n_n_0_1_164
      = rowTakeDims 100000 1700000 64 gather_S100000x64_S1700000x1_S1700000x64_1_0_n_n_0_1_164_wf from rfl,
    gather_rows_apply (by norm_num)]
  refine congrArg (fun r : Fin 100000 => f (ix2 r q)) (Fin.ext ?_)
  show min _ _ = min _ _
  rw [column_apply]

theorem stretch2_apply (i : Fin 100000) (q : Fin 64) :
    (StableHlo.after (hostOps2 (F := Ideal)) W (Proc.devRef .tc main_v44) : S100000x64.Idx → EReal) (ix2 i q)
      = Cert.Gcn.nsum (fun e => wrapped (W (Proc.devRef .tc main_v3)) (ix1 e)) (fun e => (W (Proc.devRef .tc main_v6) : IVec S1700000 32) (ix1 e))
          (fun j c => (W (Proc.devRef .tc main_v33) : S100000x64.Idx → EReal) (ix2 j c)) i q := by
  rw [stretch2_term W]
  exact sum64_apply _ _ _ i q

end Cert.KernelIdeal.HostStretch

end
-- ==== Proof.RegionValues.lean ====
/-
  The three kernels of the graph convolution, each read as ONE function of the arrays it is entered with.

  Every kernel walks the 100000 rows in 25 blocks of 4000 rows. At block t it reads rows 4000 t … 4000 t + 3999 of its
  row-blocked operands (a feature or aggregate matrix and the column of per-row factors) and the whole of its small
  operands (a weight matrix, a bias row, a scalar bias), computes one block of the output from them, and writes it to
  rows 4000 t … 4000 t + 3999 of the output array. Since a row of the output depends only on the same row of the
  row-blocked operands, the 25 blocks are the restrictions of one whole-array function, and since the blocks tile the rows,
  the output array ends holding that function:

    kernel 0   out[i, q] = (∑ k, x[i, k] · w[k, q]) · d[i]
    kernel 1   out[i, q] = (∑ k, max (h[i, k] · d[i] + b[k]) 0 · w[k, q]) · d[i]
    kernel 2   out[i, 0] = 0 − l[i],  out[i, 1] = l[i],   l[i] = (∑ k, max (h[i, k] · d[i] + b[k]) 0 · w[k, 0]) + c

  On the extended reals a change of float format is the identity and a matrix product into the zero accumulator is the
  plain sum over the shared axis, so these are the kernels' values exactly. No finiteness is used anywhere here.

  The contents of the buffers when a kernel is entered are a parameter V; the statements hold for every V.
-/
import proofs.«165097_j8383776162491_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Idealize.ShloMosaic Idealize.ShloMosaic.ValueIdx Idealize.ShloMosaic.TcCoe Idealize.SL.Sem Cert.KernelIdeal Cert.KernelIdeal.Gen
open Idealize.ShloMosaic.Pipeline (Dat)

/-! ## The three outputs, entry by entry -/

/-- Entry (i, q) of the first kernel's output: row i of the features against column q of the weights, scaled by row
    i's factor. -/
def prescale (A : S100000x128.Idx → EReal) (W : S128x128.Idx → EReal) (D : S100000x1.Idx → EReal)
    (i : Fin 100000) (q : Fin 128) : EReal :=
  (∑ k : Fin 128, A (ix2 i k) * W (ix2 k q)) * D (ix2 i (0 : Fin 1))

/-- Entry (i, q) of the second kernel's output: row i of the aggregate is scaled by row i's factor, shifted by the bias
    row and floored at zero; that hidden row goes against column q of the weights, and the product is scaled by row i's
    factor again. -/
def aggMatmul (H : S100000x128.Idx → EReal) (D : S100000x1.Idx → EReal) (B : S1x128.Idx → EReal)
    (W : S128x64.Idx → EReal) (i : Fin 100000) (q : Fin 64) : EReal :=
  (∑ k : Fin 128, max (H (ix2 i k) * D (ix2 i (0 : Fin 1)) + B (ix2 (0 : Fin 1) k)) 0 * W (ix2 k q)) * D (ix2 i (0 : Fin 1))

/-- The logit of row i in the third kernel: the hidden row (scaled, shifted, floored as before) against the one weight
    column, plus the scalar bias. -/
def logit (H : S100000x64.Idx → EReal) (D : S100000x1.Idx → EReal) (B : S1x64.Idx → EReal)
    (W : S64x1.Idx → EReal) (b : S1x1.Idx → EReal) (i : Fin 100000) : EReal :=
  (∑ k : Fin 64, max (H (ix2 i k) * D (ix2 i (0 : Fin 1)) + B (ix2 (0 : Fin 1) k)) 0 * W (ix2 k (0 : Fin 1)))
    + b (ix2 (0 : Fin 1) (0 : Fin 1))

/-- Entry (i, q) of the third kernel's output: column 0 holds the negated logit, column 1 the logit. -/
def finalPair (H : S100000x64.Idx → EReal) (D : S100000x1.Idx → EReal) (B : S1x64.Idx → EReal)
    (W : S64x1.Idx → EReal) (b : S1x1.Idx → EReal) (i : Fin 100000) (q : Fin 2) : EReal :=
  if q.val = 0 then 0 - logit H D B W b i else logit H D B W b i

/-! ## Layout operations and the contraction, read at an index -/

/-- A column [a,1] repeated across b columns reads, at (p, c), the column's entry in row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The zero word of a 32-bit float is the extended real 0. -/
theorem zero_word : Scalar.ofBits (F := Ideal) .f32 0x00000000#32 = (0 : EReal) := Ideal.ofBits_zero_f32

theorem hz : (![0, 0] : Fin 2 → Nat) = fun _ => 0 := funext fun a => by fin_cases a <;> rfl

/-- A pair "zero minus L, or L", chosen by whether a coordinate is 0, depends only on the coordinate and on L. -/
theorem ite_pair_congr {a b : ℕ} (hab : a = b) {L L' : EReal} (h : L = L') :
    (if a = 0 then 0 - L else L) = (if b = 0 then 0 - L' else L') := by
  subst hab; subst h; rfl

/-! ## The three contractions -/

theorem lhs0_0 (i : S4000x128.Idx) (z : dot_S4000x128_S128x128_S4000x128_1_0_0_1_n_n.contr.Idx) :
    (dot_S4000x128_S128x128_S4000x128_1_0_0_1_n_n.lhsIdx i z 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs0_1 (i : S4000x128.Idx) (z : dot_S4000x128_S128x128_S4000x128_1_0_0_1_n_n.contr.Idx) :
    (dot_S4000x128_S128x128_S4000x128_1_0_0_1_n_n.lhsIdx i z 1).val = (z ⟨0, by decide⟩).val :=
  dot_S4000x128_S128x128_S4000x128_1_0_0_1_n_n.lhsIdx_val_of_single rfl i z
theorem rhs0_0 (i : S4000x128.Idx) (z : dot_S4000x128_S128x128_S4000x128_1_0_0_1_n_n.contr.Idx) :
    (dot_S4000x128_S128x128_S4000x128_1_0_0_1_n_n.rhsIdx i z 0).val = (z ⟨0, by decide⟩).val :=
  dot_S4000x128_S128x128_S4000x128_1_0_0_1_n_n.rhsIdx_val_of_single rfl i z
theorem rhs0_1 (i : S4000x128.Idx) (z : dot_S4000x128_S128x128_S4000x128_1_0_0_1_n_n.contr.Idx) :
    (dot_S4000x128_S128x128_S4000x128_1_0_0_1_n_n.rhsIdx i z 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The contraction [4000,128] x [128,128] into the zero accumulator, read at (p, q): the plain sum over the shared axis. -/
theorem matmul0_apply (l : FVec Ideal S4000x128 .bf16) (r : FVec Ideal S128x128 .bf16) (p : Fin 4000) (q : Fin 128) :
    matmul dot_S4000x128_S128x128_S4000x128_1_0_0_1_n_n none l r (constant S4000x128 .f32 0x00000000#32) (ix2 p q)
      = ∑ k : Fin 128, l (ix2 p k) * r (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs0_0 _ _
    | ⟨1, _⟩ => exact (lhs0_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs0_0 _ _).trans hk
    | ⟨1, _⟩ => exact rhs0_1 _ _)
  rw [el, er]

theorem lhs1_0 (i : S4000x64.Idx) (z : dot_S4000x128_S128x64_S4000x64_1_0_0_1_n_n.contr.Idx) :
    (dot_S4000x128_S128x64_S4000x64_1_0_0_1_n_n.lhsIdx i z 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem lhs1_1 (i : S4000x64.Idx) (z : dot_S4000x128_S128x64_S4000x64_1_0_0_1_n_n.contr.Idx) :
    (dot_S4000x128_S128x64_S4000x64_1_0_0_1_n_n.lhsIdx i z 1).val = (z ⟨0, by decide⟩).val :=
  dot_S4000x128_S128x64_S4000x64_1_0_0_1_n_n.lhsIdx_val_of_single rfl i z
theorem rhs1_0 (i : S4000x64.Idx) (z : dot_S4000x128_S128x64_S4000x64_1_0_0_1_n_n.contr.Idx) :
    (dot_S4000x128_S128x64_S4000x64_1_0_0_1_n_n.rhsIdx i z 0).val = (z ⟨0, by decide⟩).val :=
  dot_S4000x128_S128x64_S4000x64_1_0_0_1_n_n.rhsIdx_val_of_single rfl i z
theorem rhs1_1 (i : S4000x64.Idx) (z : dot_S4000x128_S128x64_S4000x64_1_0_0_1_n_n.contr.Idx) :
    (dot_S4000x128_S128x64_S4000x64_1_0_0_1_n_n.rhsIdx i z 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- The contraction [4000,128] x [128,64] into the zero accumulator, read at (p, q): the plain sum over the shared axis. -/
theorem matmul1_apply (l : FVec Ideal S4000x128 .bf16) (r : FVec Ideal S128x64 .bf16) (p : Fin 4000) (q : Fin 64) :
    matmul dot_S4000x128_S128x64_S4000x64_1_0_0_1_n_n none l r (constant S4000x64 .f32 0x00000000#32) (ix2 p q)
      = ∑ k : Fin 128, l (ix2 p k) * r (ix2 k q) := by
  simp only [matmul]
  rw [Ideal.matmul_constant_zero_apply, ← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p q) ((contrEquiv1 dot_S4000x128_S128x64_S4000x64_1_0_0_1_n_n 128 rfl rfl).symm k) = ix2 p k := funext fun a => Fin.ext (by
    match a with
    | ⟨0, _⟩ => exact lhs1_0 _ _
    | ⟨1, _⟩ => exact (lhs1_1 _ _).trans hk)
  have er : dot_S4000x128_S128x64_S4000x64_1_0_0_1_n_n.rhsIdx (ix2 p q) ((contrEquiv1 dot_S4000x128_S128x64_S4000x64_1_0_0_1_n_n 128 rfl rfl).symm k) = ix2 k q := funext fun a => Fin.ext (by
    match a with
    | ⟨0, _⟩ => exact (rhs1_0 _ _).trans hk
    | ⟨1, _⟩ => exact rhs1_1 _ _)
  rw [el, er]

theorem lhs2_0 (i : S4000x1.Idx) (z : dot_S4000x64_S64x1_S4000x1_1_0_0_1_n_n.contr.Idx) :
    (dot_S4000x64_S64x1_S4000x1_1_0_0_1_n_n.lhsIdx i z 0).val = (i 0).val := by
  unfold DotDims.lhsIdx
  rw [dif_neg (show ¬(0 : Fin S4000x64.rank) ∈ dot_S4000x64_S64x1_S4000x1_1_0_0_1_n_n.lhsBatch by decide), dif_pos (show (0 : Fin S4000x64.rank) ∈ dot_S4000x64_S64x1_S4000x1_1_0_0_1_n_n.lhsNonContracting by decide)]
  rfl
theorem lhs2_1 (i : S4000x1.Idx) (z : dot_S4000x64_S64x1_S4000x1_1_0_0_1_n_n.contr.Idx) :
    (dot_S4000x64_S64x1_S4000x1_1_0_0_1_n_n.lhsIdx i z 1).val = (z ⟨0, by decide⟩).val :=
  dot_S4000x64_S64x1_S4000x1_1_0_0_1_n_n.lhsIdx_val_of_single rfl i z
theorem rhs2_0 (i : S4000x1.Idx) (z : dot_S4000x64_S64x1_S4000x1_1_0_0_1_n_n.contr.Idx) :
    (dot_S4000x64_S64x1_S4000x1_1_0_0_1_n_n.rhsIdx i z 0).val = (z ⟨0, by decide⟩).val :=
  dot_S4000x64_S64x1_S4000x1_1_0_0_1_n_n.rhsIdx_val_of_single rfl i z
theorem rhs2_1 (i : S4000x1.Idx) (z : dot_S4000x64_S64x1_S4000x1_1_0_0_1_n_n.contr.Idx) :
    (dot_S4000x64_S64x1_S4000x1_1_0_0_1_n_n.rhsIdx i z 1).val = (i 1).val := by
  unfold DotDims.rhsIdx
  rw [dif_neg (show ¬(1 : Fin S64x1.rank) ∈ dot_S4000x64_S64x1_S4000x1_1_0_0_1_n_n.rhsBatch by decide), dif_pos (show (1 : Fin S64x1.rank) ∈ dot_S4000x64_S64x1_S4000x1_1_0_0_1_n_n.rhsNonContracting by decide)]
  rfl

/-- The contraction [4000,64] x [64,1] into the zero accumulator, read at (p, q): the plain sum over the shared axis. -/
theorem matmul2_apply (l : FVec Ideal S4000x64 .bf16) (r : FVec Ideal S64x1 .bf16) (p : Fin 4000) (q : Fin 1) :
    matmul dot_S4000x64_S64x1_S4000x1_1_0_0_1_n_n none l r (constant S4000x1 .f32 0x00000000#32) (ix2 p q)
      = ∑ k : Fin 64, l (ix2 p k) * r (ix2 k q) := by
  simp only [matmul]
  rw [Ideal.matmul_constant_zero_apply, ← Equiv.sum_comp (contrEquiv1 dot_S4000x64_S64x1_S4000x1_1_0_0_1_n_n 64 rfl rfl).symm]
  refine Finset.sum_congr rfl fun k _ => ?_
  have hk := contrEquiv1_symm_val dot_S4000x64_S64x1_S4000x1_1_0_0_1_n_n 64 rfl rfl k
  have el : dot_S4000x64_S64x1_S4000x1_1_0_0_1_n_n.lhsIdx (ix2 p q) ((contrEquiv1 dot_S4000x64_S64x1_S4000x1_1_0_0_1_n_n 64 rfl rfl).symm k) = ix2 p k := funext fun a => Fin.ext (by
    match a with
    | ⟨0, _⟩ => exact lhs2_0 _ _
    | ⟨1, _⟩ => exact (lhs2_1 _ _).trans hk)
  have er : dot_S4000x64_S64x1_S4000x1_1_0_0_1_n_n.rhsIdx (ix2 p q) ((contrEquiv1 dot_S4000x64_S64x1_S4000x1_1_0_0_1_n_n 64 rfl rfl).symm k) = ix2 k q := funext fun a => Fin.ext (by
    match a with
    | ⟨0, _⟩ => exact (rhs2_0 _ _).trans hk
    | ⟨1, _⟩ => exact rhs2_1 _ _)
  rw [el, er]

/-! ## The three payloads at an index -/

/-- Region 0's payload at (p, q): row p of the first operand against column q of the second, scaled by row p's factor. -/
theorem pay0_apply (x0 : Vec Ideal S4000x128 .f32) (x1 : Vec Ideal S128x128 .f32) (x2 : Vec Ideal S4000x1 .f32)
    (p : Fin 4000) (q : Fin 128) :
    k0_pay1 (F := Ideal) x0 x1 x2 (ix2 p q) = (∑ k : Fin 128, x0 (ix2 p k) * x1 (ix2 k q)) * x2 (ix2 p (0 : Fin 1)) := by
  unfold k0_pay1
  simp only [truncf_apply, mulf_apply, shapeCast_self]
  rw [matmul0_apply, broadcastTo_a1_ab_apply]
  rfl

/-- Region 1's payload at (p, q). -/
theorem pay1_apply (v0 : Vec Ideal S4000x128 .f32) (v2 : Vec Ideal S4000x1 .f32) (v6 : Vec Ideal S1x128 .f32)
    (v13 : Vec Ideal S128x64 .f32) (v16 : Vec Ideal S4000x1 .f32) (p : Fin 4000) (q : Fin 64) :
    k1_pay1 (F := Ideal) v0 v2 v6 v13 v16 (ix2 p q)
      = (∑ k : Fin 128, max (v0 (ix2 p k) * v2 (ix2 p (0 : Fin 1)) + v6 (ix2 (0 : Fin 1) k)) 0 * v13 (ix2 k q))
        * v16 (ix2 p (0 : Fin 1)) := by
  unfold k1_pay1
  simp only [truncf_apply, mulf_apply]
  rw [matmul1_apply, broadcastTo_a1_ab_apply]
  simp only [truncf_apply, maximumf_apply, addf_apply, mulf_apply, broadcast_apply, shapeCast_self,
    broadcastTo_a1_ab_apply, broadcastTo_1b_ab_apply, zero_word]

/-- Region 2's payload at (p, q): column 0 is zero minus the logit of row p, column 1 the logit. -/
theorem pay2_apply (v0 : Vec Ideal S4000x64 .f32) (v2 : Vec Ideal S4000x1 .f32) (v6 : Vec Ideal S1x64 .f32)
    (v13 : Vec Ideal S64x1 .f32) (v16 : Vec Ideal S1x1 .f32) (p : Fin 4000) (q : Fin 2) :
    k2_pay1 (F := Ideal) v0 v2 v6 v13 v16 (ix2 p q)
      = if q.val = 0 then
          0 - ((∑ k : Fin 64, max (v0 (ix2 p k) * v2 (ix2 p (0 : Fin 1)) + v6 (ix2 (0 : Fin 1) k)) 0 * v13 (ix2 k (0 : Fin 1)))
            + v16 (ix2 (0 : Fin 1) (0 : Fin 1)))
        else
          (∑ k : Fin 64, max (v0 (ix2 p k) * v2 (ix2 p (0 : Fin 1)) + v6 (ix2 (0 : Fin 1) k)) 0 * v13 (ix2 k (0 : Fin 1)))
            + v16 (ix2 (0 : Fin 1) (0 : Fin 1)) := by
  unfold k2_pay1
  have hq : q.val = 0 ∨ q.val = 1 := by omega
  rcases hq with h | h
  · obtain rfl : q = (0 : Fin 2) := Fin.ext h
    rw [if_pos h]
    refine (concatenate_pair_apply_left (t := S4000x2) (s₁ := S4000x1) (s₂ := S4000x1) (1 : Fin S4000x2.rank) _ _ _
      (ix2 p (0 : Fin 2)) rfl (ix2 p (0 : Fin 1))
      (fun b => by match b with | ⟨0, _⟩ => rfl | ⟨1, _⟩ => rfl)).trans ?_
    simp only [subf_apply, addf_apply, broadcast_apply]
    rw [matmul2_apply, broadcastTo_1b_ab_apply]
    simp only [truncf_apply, maximumf_apply, addf_apply, mulf_apply, broadcast_apply, shapeCast_self,
      broadcastTo_a1_ab_apply, broadcastTo_1b_ab_apply, zero_word]
  · obtain rfl : q = (1 : Fin 2) := Fin.ext h
    rw [if_neg (show ¬((1 : Fin 2).val = 0) by decide)]
    refine (concatenate_pair_apply_right (t := S4000x2) (s₁ := S4000x1) (s₂ := S4000x1) (1 : Fin S4000x2.rank) _ _ _
      (ix2 p (1 : Fin 2)) rfl rfl (ix2 p (0 : Fin 1))
      (fun b hb => by match b, hb with | ⟨0, _⟩, _ => rfl | ⟨1, _⟩, hb => exact absurd rfl hb) rfl).trans ?_
    simp only [addf_apply]
    rw [matmul2_apply, broadcastTo_1b_ab_apply]
    simp only [truncf_apply, maximumf_apply, addf_apply, mulf_apply, broadcast_apply, shapeCast_self,
      broadcastTo_a1_ab_apply, broadcastTo_1b_ab_apply, zero_word]

/-! ## Region 0 -/

section Region0

variable (V : (c : Dev nD) → (b : Ref sig .tc) → Buf (Elt Ideal) ((c : Thread nD τ).loc b)) (c : Dev nD)

/-- Where each window's block sits at grid point t: the three row-blocked windows at row block t, the weight matrix whole. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0 :=
  (by decide +kernel : ∀ t : Fin grid0.N, _)

/-- The feature block at point t is rows 4000 t … 4000 t + 3999 of the feature matrix. -/
theorem iblk0_0_apply (t : Fin cfg0.N) (x : S4000x128.Idx) (i : S100000x128.Idx)
    (h0 : (i 0).val = t.val * 4000 + (x 0).val) (h1 : (i 1).val = (x 1).val) :
    (iblk0 V c 0 t : Vec Ideal S4000x128 .f32) x = (V c main_arg0 : S100000x128.Idx → EReal) i := by
  obtain ⟨e0, e1, _⟩ := idx0 t
  unfold iblk0
  rw [View.read_apply]
  show V c main_arg0 _ = V c main_arg0 _
  refine congrArg (V c main_arg0) ?_
  funext a
  apply Fin.ext
  have hx0 : (x 0).val < 4000 := (x 0).isLt
  have hx1 : (x 1).val < 128 := (x 1).isLt
  have hi1 : (i 1).val < 128 := (i 1).isLt
  match a with
  | ⟨0, _⟩ => show win0_0.index t (0 : Fin 2) * 4000 + 1 * (x 0).val = (i 0).val; omega
  | ⟨1, _⟩ => show win0_0.index t (1 : Fin 2) * 128 + 1 * (x 1).val = (i 1).val; omega

/-- The weight block at every point is the whole weight matrix. -/
theorem iblk0_1_apply (t : Fin cfg0.N) (x : S128x128.Idx) (i : S128x128.Idx)
    (h0 : (i 0).val = (x 0).val) (h1 : (i 1).val = (x 1).val) :
    (iblk0 V c 1 t : Vec Ideal S128x128 .f32) x = (V c main_arg2 : S128x128.Idx → EReal) i := by
  obtain ⟨-, -, e0, e1, _⟩ := idx0 t
  unfold iblk0
  rw [View.read_apply]
  show V c main_arg2 _ = V c main_arg2 _
  refine congrArg (V c main_arg2) ?_
  funext a
  apply Fin.ext
  have hx0 : (x 0).val < 128 := (x 0).isLt
  have hx1 : (x 1).val < 128 := (x 1).isLt
  have hi1 : (i 1).val < 128 := (i 1).isLt
  match a with
  | ⟨0, _⟩ => show win0_1.index t (0 : Fin 2) * 128 + 1 * (x 0).val = (i 0).val; omega
  | ⟨1, _⟩ => show win0_1.index t (1 : Fin 2) * 128 + 1 * (x 1).val = (i 1).val; omega

/-- The row-factor block at point t is rows 4000 t … 4000 t + 3999 of the factor column. -/
theorem iblk0_2_apply (t : Fin cfg0.N) (x : S4000x1.Idx) (i : S100000x1.Idx)
    (h0 : (i 0).val = t.val * 4000 + (x 0).val) (h1 : (i 1).val = (x 1).val) :
    (iblk0 V c 2 t : Vec Ideal S4000x1 .f32) x = (V c main_v17 : S100000x1.Idx → EReal) i := by
  obtain ⟨-, -, -, -, e0, e1, _⟩ := idx0 t
  unfold iblk0
  rw [View.read_apply]
  show V c main_v17 _ = V c main_v17 _
  refine congrArg (V c main_v17) ?_
  funext a
  apply Fin.ext
  have hx0 : (x 0).val < 4000 := (x 0).isLt
  have hx1 : (x 1).val < 1 := (x 1).isLt
  have hi1 : (i 1).val < 1 := (i 1).isLt
  match a with
  | ⟨0, _⟩ => show win0_2.index t (0 : Fin 2) * 4000 + 1 * (x 0).val = (i 0).val; omega
  | ⟨1, _⟩ => show win0_2.index t (1 : Fin 2) * 1 + 1 * (x 1).val = (i 1).val; omega

/-- Region 0's output as one function of the index of the whole array. -/
abbrev G0 (A : S100000x128.Idx → EReal) (W : S128x128.Idx → EReal) (D : S100000x1.Idx → EReal) : S100000x128.Idx → EReal :=
  fun i => prescale A W D (⟨(i 0).val, (i 0).isLt⟩ : Fin 100000) (⟨(i 1).val, (i 1).isLt⟩ : Fin 128)

/-- What the body leaves in the output's staging buffer at point t is block t of that function. -/
theorem block0_eq (t : Fin cfg0.N) (j : S4000x128.Idx) :
    out0_3 (iblk0 V c 0 t) (iblk0 V c 1 t) (iblk0 V c 2 t) j
      = G0 (V c main_arg0) (V c main_arg2) (V c main_v17) (((cfg0.win 3).blk t).view.emb j) := by
  obtain ⟨p, q, rfl⟩ : ∃ (p : Fin 4000) (q : Fin 128), j = ix2 p q := ⟨j 0, j 1, eq_ix2 j⟩
  obtain ⟨-, -, -, -, -, -, e6, e7⟩ := idx0 t
  unfold out0_3
  rw [View.canon_unit_zero hz]
  simp only [View.ld_unit_zero (S := S4000x128) hz, View.ld_unit_zero (S := S128x128) hz, View.ld_unit_zero (S := S4000x1) hz]
  refine (pay0_apply _ _ _ p q).trans ?_
  unfold G0 prescale
  refine congrArg₂ (· * ·) (Finset.sum_congr rfl fun k _ => congrArg₂ (· * ·)
    (iblk0_0_apply V c t _ _ ?_ ?_) (iblk0_1_apply V c t _ _ ?_ ?_)) (iblk0_2_apply V c t _ _ ?_ ?_)
  · show win0_3.index t (0 : Fin 2) * 4000 + 1 * p.val = t.val * 4000 + p.val; omega
  · rfl
  · rfl
  · show win0_3.index t (1 : Fin 2) * 128 + 1 * q.val = q.val; omega
  · show win0_3.index t (0 : Fin 2) * 4000 + 1 * p.val = t.val * 4000 + p.val; omega
  · rfl

/-- What point t writes back to the output array is block t of that function. -/
theorem flushed0_eq (t : Fin cfg0.N) :
    (dat0 V c).flushed 3 t = ((cfg0.win 3).blk t).view.read (Elt Ideal) (G0 (V c main_arg0) (V c main_arg2) (V c main_v17)) := by
  show (cfg0.win 3).cut (grid0.coords t) ((dat0 V c).after 3 t) = _
  rw [after0_3]
  funext j
  exact block0_eq V c t j

/-- An index of the output array lies in point t's block iff each coordinate lies in the block's range on its axis. -/
theorem mem_blk0 (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v21).slice (win0_3.rect t)).set ↔ _
  rw [View.set_slice_whole, Rect.mem_set_unit]
  exact Iff.rfl

/-- Row r of the output is written by point r / 4000: the 25 row blocks tile the 100000 rows. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, by rw [show cfg0.N = 25 from N_0]; omega⟩, rfl⟩
  obtain ⟨-, -, -, -, -, -, e0, e1⟩ := idx0 t
  refine ⟨t, flush0_3 t, ?_⟩
  rw [mem_blk0]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega

/-- The output array after region 0. -/
theorem final0 : (dat0 V c).arrAt 3 cfg0.N = G0 (V c main_arg0) (V c main_arg2) (V c main_v17) :=
  (dat0 V c).arrAt_eq_of_cover 3 _ (fun t _ => flushed0_eq V c t) cover0

/-- REGION 0: entry (i, q) of its output array. -/
theorem region0 (i : Fin 100000) (q : Fin 128) :
    ((dat0 (F := Ideal) V c).arrAt 3 cfg0.N : S100000x128.Idx → EReal) (ix2 i q)
      = prescale (V c main_arg0) (V c main_arg2) (V c main_v17) i q :=
  congrFun (final0 V c) (ix2 i q)

end Region0

/-! ## Region 1 -/

section Region1

variable (V : (c : Dev nD) → (b : Ref sig .tc) → Buf (Elt Ideal) ((c : Thread nD τ).loc b)) (c : Dev nD)

/-- Where each window's block sits at grid point t: the aggregate, the factor column and the output at row block t, the bias row and the weight matrix whole. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

/-- The aggregate block at point t is rows 4000 t … 4000 t + 3999 of the aggregate. -/
theorem iblk1_0_apply (t : Fin cfg1.N) (x : S4000x128.Idx) (i : S100000x128.Idx)
    (h0 : (i 0).val = t.val * 4000 + (x 0).val) (h1 : (i 1).val = (x 1).val) :
    (iblk1 V c 0 t : Vec Ideal S4000x128 .f32) x = (V c main_v32 : S100000x128.Idx → EReal) i := by
  obtain ⟨e0, e1, _⟩ := idx1 t
  unfold iblk1
  rw [View.read_apply]
  show V c main_v32 _ = V c main_v32 _
  refine congrArg (V c main_v32) ?_
  funext a
  apply Fin.ext
  have hx0 : (x 0).val < 4000 := (x 0).isLt
  have hx1 : (x 1).val < 128 := (x 1).isLt
  have hi1 : (i 1).val < 128 := (i 1).isLt
  match a with
  | ⟨0, _⟩ => show win1_0.index t (0 : Fin 2) * 4000 + 1 * (x 0).val = (i 0).val; omega
  | ⟨1, _⟩ => show win1_0.index t (1 : Fin 2) * 128 + 1 * (x 1).val = (i 1).val; omega

/-- The row-factor block at point t is rows 4000 t … 4000 t + 3999 of the factor column. -/
theorem iblk1_1_apply (t : Fin cfg1.N) (x : S4000x1.Idx) (i : S100000x1.Idx)
    (h0 : (i 0).val = t.val * 4000 + (x 0).val) (h1 : (i 1).val = (x 1).val) :
    (iblk1 V c 1 t : Vec Ideal S4000x1 .f32) x = (V c main_v17 : S100000x1.Idx → EReal) i := by
  obtain ⟨-, -, e0, e1, _⟩ := idx1 t
  unfold iblk1
  rw [View.read_apply]
  show V c main_v17 _ = V c main_v17 _
  refine congrArg (V c main_v17) ?_
  funext a
  apply Fin.ext
  have hx0 : (x 0).val < 4000 := (x 0).isLt
  have hx1 : (x 1).val < 1 := (x 1).isLt
  have hi1 : (i 1).val < 1 := (i 1).isLt
  match a with
  | ⟨0, _⟩ => show win1_1.index t (0 : Fin 2) * 4000 + 1 * (x 0).val = (i 0).val; omega
  | ⟨1, _⟩ => show win1_1.index t (1 : Fin 2) * 1 + 1 * (x 1).val = (i 1).val; omega

/-- The bias block at every point is the whole bias row. -/
theorem iblk1_2_apply (t : Fin cfg1.N) (x : S1x128.Idx) (i : S1x128.Idx)
    (h0 : (i 0).val = (x 0).val) (h1 : (i 1).val = (x 1).val) :
    (iblk1 V c 2 t : Vec Ideal S1x128 .f32) x = (V c main_v18 : S1x128.Idx → EReal) i := by
  obtain ⟨-, -, -, -, e0, e1, _⟩ := idx1 t
  unfold iblk1
  rw [View.read_apply]
  show V c main_v18 _ = V c main_v18 _
  refine congrArg (V c main_v18) ?_
  funext a
  apply Fin.ext
  have hx0 : (x 0).val < 1 := (x 0).isLt
  have hx1 : (x 1).val < 128 := (x 1).isLt
  have hi1 : (i 1).val < 128 := (i 1).isLt
  match a with
  | ⟨0, _⟩ => show win1_2.index t (0 : Fin 2) * 1 + 1 * (x 0).val = (i 0).val; omega
  | ⟨1, _⟩ => show win1_2.index t (1 : Fin 2) * 128 + 1 * (x 1).val = (i 1).val; omega

/-- The weight block at every point is the whole weight matrix. -/
theorem iblk1_3_apply (t : Fin cfg1.N) (x : S128x64.Idx) (i : S128x64.Idx)
    (h0 : (i 0).val = (x 0).val) (h1 : (i 1).val = (x 1).val) :
    (iblk1 V c 3 t : Vec Ideal S128x64 .f32) x = (V c main_arg4 : S128x64.Idx → EReal) i := by
  obtain ⟨-, -, -, -, -, -, e0, e1, _⟩ := idx1 t
  unfold iblk1
  rw [View.read_apply]
  show V c main_arg4 _ = V c main_arg4 _
  refine congrArg (V c main_arg4) ?_
  funext a
  apply Fin.ext
  have hx0 : (x 0).val < 128 := (x 0).isLt
  have hx1 : (x 1).val < 64 := (x 1).isLt
  have hi1 : (i 1).val < 64 := (i 1).isLt
  match a with
  | ⟨0, _⟩ => show win1_3.index t (0 : Fin 2) * 128 + 1 * (x 0).val = (i 0).val; omega
  | ⟨1, _⟩ => show win1_3.index t (1 : Fin 2) * 64 + 1 * (x 1).val = (i 1).val; omega

/-- Region 1's output as one function of the index of the whole array. -/
abbrev G1 (H : S100000x128.Idx → EReal) (D : S100000x1.Idx → EReal) (B : S1x128.Idx → EReal) (W : S128x64.Idx → EReal) :
    S100000x64.Idx → EReal :=
  fun i => aggMatmul H D B W (⟨(i 0).val, (i 0).isLt⟩ : Fin 100000) (⟨(i 1).val, (i 1).isLt⟩ : Fin 64)

/-- What the body leaves in the output's staging buffer at point t is block t of that function. -/
theorem block1_eq (t : Fin cfg1.N) (j : S4000x64.Idx) :
    out1_4 (iblk1 V c 0 t) (iblk1 V c 1 t) (iblk1 V c 2 t) (iblk1 V c 3 t) j
      = G1 (V c main_v32) (V c main_v17) (V c main_v18) (V c main_arg4) (((cfg1.win 4).blk t).view.emb j) := by
  obtain ⟨p, q, rfl⟩ : ∃ (p : Fin 4000) (q : Fin 64), j = ix2 p q := ⟨j 0, j 1, eq_ix2 j⟩
  obtain ⟨-, -, -, -, -, -, -, -, e8, e9⟩ := idx1 t
  unfold out1_4
  rw [View.canon_unit_zero hz]
  simp only [View.ld_unit_zero (S := S4000x128) hz, View.ld_unit_zero (S := S4000x1) hz, View.ld_unit_zero (S := S1x128) hz,
    View.ld_unit_zero (S := S128x64) hz]
  refine (pay1_apply _ _ _ _ _ p q).trans ?_
  unfold G1 aggMatmul
  refine congrArg₂ (· * ·) (Finset.sum_congr rfl fun k _ => congrArg₂ (· * ·)
    (congrArg₂ max (congrArg₂ (· + ·) (congrArg₂ (· * ·) (iblk1_0_apply V c t _ _ ?_ ?_) (iblk1_1_apply V c t _ _ ?_ ?_))
      (iblk1_2_apply V c t _ _ ?_ ?_)) rfl)
    (iblk1_3_apply V c t _ _ ?_ ?_)) (iblk1_1_apply V c t _ _ ?_ ?_)
  · show win1_4.index t (0 : Fin 2) * 4000 + 1 * p.val = t.val * 4000 + p.val; omega
  · rfl
  · show win1_4.index t (0 : Fin 2) * 4000 + 1 * p.val = t.val * 4000 + p.val; omega
  · rfl
  · rfl
  · rfl
  · rfl
  · show win1_4.index t (1 : Fin 2) * 64 + 1 * q.val = q.val; omega
  · show win1_4.index t (0 : Fin 2) * 4000 + 1 * p.val = t.val * 4000 + p.val; omega
  · rfl

/-- What point t writes back to the output array is block t of that function. -/
theorem flushed1_eq (t : Fin cfg1.N) :
    (dat1 V c).flushed 4 t = ((cfg1.win 4).blk t).view.read (Elt Ideal)
      (G1 (V c main_v32) (V c main_v17) (V c main_v18) (V c main_arg4)) := by
  show (cfg1.win 4).cut (grid1.coords t) ((dat1 V c).after 4 t) = _
  rw [after1_4]
  funext j
  exact block1_eq V c t j

/-- An index of the output array lies in point t's block iff each coordinate lies in the block's range on its axis. -/
theorem mem_blk1 (t : Fin cfg1.N) (i : S100000x64.Idx) :
    i ∈ ((cfg1.win 4).blk t).view.set ↔ ∀ a : Fin 2, win1_4.index t a * S4000x64.size a ≤ (i a).val
      ∧ (i a).val < win1_4.index t a * S4000x64.size a + S4000x64.size a := by
  show i ∈ ((View.whole main_v33).slice (win1_4.rect t)).set ↔ _
  rw [View.set_slice_whole, Rect.mem_set_unit]
  exact Iff.rfl

/-- Row r of the output is written by point r / 4000: the 25 row blocks tile the 100000 rows. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ : ∃ t : Fin cfg1.N, t.val = (i 0).val / 4000 :=
    ⟨⟨(i 0).val / 4000, by rw [show cfg1.N = 25 from N_1]; omega⟩, rfl⟩
  obtain ⟨-, -, -, -, -, -, -, -, e0, e1⟩ := idx1 t
  refine ⟨t, flush1_4 t, ?_⟩
  rw [mem_blk1]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 64 ≤ (i 1).val ∧ (i 1).val < win1_4.index t (1 : Fin 2) * 64 + 64; omega

/-- The output array after region 1. -/
theorem final1 : (dat1 V c).arrAt 4 cfg1.N = G1 (V c main_v32) (V c main_v17) (V c main_v18) (V c main_arg4) :=
  (dat1 V c).arrAt_eq_of_cover 4 _ (fun t _ => flushed1_eq V c t) cover1

/-- REGION 1: entry (i, q) of its output array. -/
theorem region1 (i : Fin 100000) (q : Fin 64) :
    ((dat1 (F := Ideal) V c).arrAt 4 cfg1.N : S100000x64.Idx → EReal) (ix2 i q)
      = aggMatmul (V c main_v32) (V c main_v17) (V c main_v18) (V c main_arg4) i q :=
  congrFun (final1 V c) (ix2 i q)

end Region1

/-! ## Region 2 -/

section Region2

variable (V : (c : Dev nD) → (b : Ref sig .tc) → Buf (Elt Ideal) ((c : Thread nD τ).loc b)) (c : Dev nD)

/-- Where each window's block sits at grid point t: the aggregate, the factor column and the output at row block t, the bias row, the weight column and the scalar bias whole. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

/-- The aggregate block at point t is rows 4000 t … 4000 t + 3999 of the aggregate. -/
theorem iblk2_0_apply (t : Fin cfg2.N) (x : S4000x64.Idx) (i : S100000x64.Idx)
    (h0 : (i 0).val = t.val * 4000 + (x 0).val) (h1 : (i 1).val = (x 1).val) :
    (iblk2 V c 0 t : Vec Ideal S4000x64 .f32) x = (V c main_v44 : S100000x64.Idx → EReal) i := by
  obtain ⟨e0, e1, _⟩ := idx2 t
  unfold iblk2
  rw [View.read_apply]
  show V c main_v44 _ = V c main_v44 _
  refine congrArg (V c main_v44) ?_
  funext a
  apply Fin.ext
  have hx0 : (x 0).val < 4000 := (x 0).isLt
  have hx1 : (x 1).val < 64 := (x 1).isLt
  have hi1 : (i 1).val < 64 := (i 1).isLt
  match a with
  | ⟨0, _⟩ => show win2_0.index t (0 : Fin 2) * 4000 + 1 * (x 0).val = (i 0).val; omega
  | ⟨1, _⟩ => show win2_0.index t (1 : Fin 2) * 64 + 1 * (x 1).val = (i 1).val; omega

/-- The row-factor block at point t is rows 4000 t … 4000 t + 3999 of the factor column. -/
theorem iblk2_1_apply (t : Fin cfg2.N) (x : S4000x1.Idx) (i : S100000x1.Idx)
    (h0 : (i 0).val = t.val * 4000 + (x 0).val) (h1 : (i 1).val = (x 1).val) :
    (iblk2 V c 1 t : Vec Ideal S4000x1 .f32) x = (V c main_v17 : S100000x1.Idx → EReal) i := by
  obtain ⟨-, -, e0, e1, _⟩ := idx2 t
  unfold iblk2
  rw [View.read_apply]
  show V c main_v17 _ = V c main_v17 _
  refine congrArg (V c main_v17) ?_
  funext a
  apply Fin.ext
  have hx0 : (x 0).val < 4000 := (x 0).isLt
  have hx1 : (x 1).val < 1 := (x 1).isLt
  have hi1 : (i 1).val < 1 := (i 1).isLt
  match a with
  | ⟨0, _⟩ => show win2_1.index t (0 : Fin 2) * 4000 + 1 * (x 0).val = (i 0).val; omega
  | ⟨1, _⟩ => show win2_1.index t (1 : Fin 2) * 1 + 1 * (x 1).val = (i 1).val; omega

/-- The bias block at every point is the whole bias row. -/
theorem iblk2_2_apply (t : Fin cfg2.N) (x : S1x64.Idx) (i : S1x64.Idx)
    (h0 : (i 0).val = (x 0).val) (h1 : (i 1).val = (x 1).val) :
    (iblk2 V c 2 t : Vec Ideal S1x64 .f32) x = (V c main_v19 : S1x64.Idx → EReal) i := by
  obtain ⟨-, -, -, -, e0, e1, _⟩ := idx2 t
  unfold iblk2
  rw [View.read_apply]
  show V c main_v19 _ = V c main_v19 _
  refine congrArg (V c main_v19) ?_
  funext a
  apply Fin.ext
  have hx0 : (x 0).val < 1 := (x 0).isLt
  have hx1 : (x 1).val < 64 := (x 1).isLt
  have hi1 : (i 1).val < 64 := (i 1).isLt
  match a with
  | ⟨0, _⟩ => show win2_2.index t (0 : Fin 2) * 1 + 1 * (x 0).val = (i 0).val; omega
  | ⟨1, _⟩ => show win2_2.index t (1 : Fin 2) * 64 + 1 * (x 1).val = (i 1).val; omega

/-- The weight block at every point is the whole weight column. -/
theorem iblk2_3_apply (t : Fin cfg2.N) (x : S64x1.Idx) (i : S64x1.Idx)
    (h0 : (i 0).val = (x 0).val) (h1 : (i 1).val = (x 1).val) :
    (iblk2 V c 3 t : Vec Ideal S64x1 .f32) x = (V c main_arg6 : S64x1.Idx → EReal) i := by
  obtain ⟨-, -, -, -, -, -, e0, e1, _⟩ := idx2 t
  unfold iblk2
  rw [View.read_apply]
  show V c main_arg6 _ = V c main_arg6 _
  refine congrArg (V c main_arg6) ?_
  funext a
  apply Fin.ext
  have hx0 : (x 0).val < 64 := (x 0).isLt
  have hx1 : (x 1).val < 1 := (x 1).isLt
  have hi1 : (i 1).val < 1 := (i 1).isLt
  match a with
  | ⟨0, _⟩ => show win2_3.index t (0 : Fin 2) * 64 + 1 * (x 0).val = (i 0).val; omega
  | ⟨1, _⟩ => show win2_3.index t (1 : Fin 2) * 1 + 1 * (x 1).val = (i 1).val; omega

/-- The scalar bias block at every point is the whole one-entry array. -/
theorem iblk2_4_apply (t : Fin cfg2.N) (x : S1x1.Idx) (i : S1x1.Idx)
    (h0 : (i 0).val = (x 0).val) (h1 : (i 1).val = (x 1).val) :
    (iblk2 V c 4 t : Vec Ideal S1x1 .f32) x = (V c main_v20 : S1x1.Idx → EReal) i := by
  obtain ⟨-, -, -, -, -, -, -, -, e0, e1, _⟩ := idx2 t
  unfold iblk2
  rw [View.read_apply]
  show V c main_v20 _ = V c main_v20 _
  refine congrArg (V c main_v20) ?_
  funext a
  apply Fin.ext
  have hx0 : (x 0).val < 1 := (x 0).isLt
  have hx1 : (x 1).val < 1 := (x 1).isLt
  have hi1 : (i 1).val < 1 := (i 1).isLt
  match a with
  | ⟨0, _⟩ => show win2_4.index t (0 : Fin 2) * 1 + 1 * (x 0).val = (i 0).val; omega
  | ⟨1, _⟩ => show win2_4.index t (1 : Fin 2) * 1 + 1 * (x 1).val = (i 1).val; omega

/-- Region 2's output as one function of the index of the whole array. -/
abbrev G2 (H : S100000x64.Idx → EReal) (D : S100000x1.Idx → EReal) (B : S1x64.Idx → EReal) (W : S64x1.Idx → EReal)
    (b : S1x1.Idx → EReal) : S100000x2.Idx → EReal :=
  fun i => finalPair H D B W b (⟨(i 0).val, (i 0).isLt⟩ : Fin 100000) (⟨(i 1).val, (i 1).isLt⟩ : Fin 2)

/-- What the body leaves in the output's staging buffer at point t is block t of that function. -/
theorem block2_eq (t : Fin cfg2.N) (j : S4000x2.Idx) :
    out2_5 (iblk2 V c 0 t) (iblk2 V c 1 t) (iblk2 V c 2 t) (iblk2 V c 3 t) (iblk2 V c 4 t) j
      = G2 (V c main_v44) (V c main_v17) (V c main_v19) (V c main_arg6) (V c main_v20) (((cfg2.win 5).blk t).view.emb j) := by
  obtain ⟨p, q, rfl⟩ : ∃ (p : Fin 4000) (q : Fin 2), j = ix2 p q := ⟨j 0, j 1, eq_ix2 j⟩
  obtain ⟨-, -, -, -, -, -, -, -, -, -, e10, e11⟩ := idx2 t
  unfold out2_5
  rw [View.canon_unit_zero hz]
  simp only [View.ld_unit_zero (S := S4000x64) hz, View.ld_unit_zero (S := S4000x1) hz, View.ld_unit_zero (S := S1x64) hz,
    View.ld_unit_zero (S := S64x1) hz, View.ld_unit_zero (S := S1x1) hz]
  refine (pay2_apply _ _ _ _ _ p q).trans ?_
  unfold G2 finalPair logit
  refine ite_pair_congr ?_ (congrArg₂ (· + ·) (Finset.sum_congr rfl fun k _ => congrArg₂ (· * ·)
    (congrArg₂ max (congrArg₂ (· + ·) (congrArg₂ (· * ·) (iblk2_0_apply V c t _ _ ?_ ?_) (iblk2_1_apply V c t _ _ ?_ ?_))
      (iblk2_2_apply V c t _ _ ?_ ?_)) rfl)
    (iblk2_3_apply V c t _ _ ?_ ?_)) (iblk2_4_apply V c t _ _ ?_ ?_))
  · show q.val = win2_5.index t (1 : Fin 2) * 2 + 1 * q.val; omega
  · show win2_5.index t (0 : Fin 2) * 4000 + 1 * p.val = t.val * 4000 + p.val; omega
  · rfl
  · show win2_5.index t (0 : Fin 2) * 4000 + 1 * p.val = t.val * 4000 + p.val; omega
  · rfl
  · rfl
  · rfl
  · rfl
  · rfl
  · rfl
  · rfl

/-- What point t writes back to the output array is block t of that function. -/
theorem flushed2_eq (t : Fin cfg2.N) :
    (dat2 V c).flushed 5 t = ((cfg2.win 5).blk t).view.read (Elt Ideal)
      (G2 (V c main_v44) (V c main_v17) (V c main_v19) (V c main_arg6) (V c main_v20)) := by
  show (cfg2.win 5).cut (grid2.coords t) ((dat2 V c).after 5 t) = _
  rw [after2_5]
  funext j
  exact block2_eq V c t j

/-- An index of the output array lies in point t's block iff each coordinate lies in the block's range on its axis. -/
theorem mem_blk2 (t : Fin cfg2.N) (i : S100000x2.Idx) :
    i ∈ ((cfg2.win 5).blk t).view.set ↔ ∀ a : Fin 2, win2_5.index t a * S4000x2.size a ≤ (i a).val
      ∧ (i a).val < win2_5.index t a * S4000x2.size a + S4000x2.size a := by
  show i ∈ ((View.whole main_v45).slice (win2_5.rect t)).set ↔ _
  rw [View.set_slice_whole, Rect.mem_set_unit]
  exact Iff.rfl

/-- Row r of the output is written by point r / 4000: the 25 row blocks tile the 100000 rows. -/
theorem cover2 (i : S100000x2.Idx) :
    ∃ t : Fin cfg2.N, (cfg2.win 5).flush t = true ∧ i ∈ ((cfg2.win 5).blk t).view.set := by
  have hi0 : (i 0).val < 100000 := (i 0).isLt
  have hi1 : (i 1).val < 2 := (i 1).isLt
  obtain ⟨t, ht⟩ : ∃ t : Fin cfg2.N, t.val = (i 0).val / 4000 :=
    ⟨⟨(i 0).val / 4000, by rw [show cfg2.N = 25 from N_2]; omega⟩, rfl⟩
  obtain ⟨-, -, -, -, -, -, -, -, -, -, e0, e1⟩ := idx2 t
  refine ⟨t, flush2_5 t, ?_⟩
  rw [mem_blk2]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 2 ≤ (i 1).val ∧ (i 1).val < win2_5.index t (1 : Fin 2) * 2 + 2; omega

/-- The output array after region 2. -/
theorem final2 : (dat2 V c).arrAt 5 cfg2.N = G2 (V c main_v44) (V c main_v17) (V c main_v19) (V c main_arg6) (V c main_v20) :=
  (dat2 V c).arrAt_eq_of_cover 5 _ (fun t _ => flushed2_eq V c t) cover2

/-- REGION 2: entry (i, q) of its output array. -/
theorem region2 (i : Fin 100000) (q : Fin 2) :
    ((dat2 (F := Ideal) V c).arrAt 5 cfg2.N : S100000x2.Idx → EReal) (ix2 i q)
      = finalPair (V c main_v44) (V c main_v17) (V c main_v19) (V c main_arg6) (V c main_v20) i q :=
  congrFun (final2 V c) (ix2 i q)

end Region2

end Cert.KernelIdeal.RegionValue

end
-- ==== Proof.KernelValue.lean ====
/-
  The kernel program's result, entry by entry, is the specification's network `kNet`.

  Reading the program backwards: the third kernel's output at `(i, q)` is the pair `(-logit, logit)` of the head applied to
  the floored, re-scaled neighbour sum it is given; that neighbour sum is the second gather/scatter stretch applied to the
  second kernel's output; the second kernel's output is the product of the first layer's activations with the second
  weights, each row scaled by its `dinv`; the first layer's activations come from the first gather/scatter stretch applied
  to the first kernel's output, which is the feature matrix times the first weights, each row scaled by its `dinv`. The
  index words and `dinv` are the same at every stage: the values the first host operations compute from the edge array.
-/
import proofs.«165097_j8383776162491_2_alg».proof.Proof.KernelWalk
import proofs.«165097_j8383776162491_2_alg».proof.Proof.HostStretch
import proofs.«165097_j8383776162491_2_alg».proof.Proof.RegionValues
import proofs.«165097_j8383776162491_2_alg».proof.Proof.Spec

set_option maxRecDepth 16384

noncomputable section

namespace Cert.KernelIdeal.Net

open scoped BigOperators
open Idealize.ShloMosaic Idealize.ShloMosaic.TcCoe Idealize.ShloMosaic.ValueIdx Idealize.ShloMosaic.StableHlo Idealize.SL.Sem
open Cert.KernelIdeal Cert.KernelIdeal.Gen Cert.KernelIdeal.Walk Cert.KernelIdeal.HostStretch Cert.KernelIdeal.RegionValue Cert.Gcn

variable (m : (ℓ : Loc nD τ sig) → Buf (Elt Ideal) ℓ) (ρ : Dev nD → PrngReg) (c : Dev nD)

/-! ## The data of the network, read off the launch memory -/

/-- The wrapped source words, the raw destination words and `dinv`, from the edge array. -/
def sn : Fin 1700000 → BitVec 32 :=
  fun e => wrapped (Cert.ReferenceIdeal.ReadP.val_main_v3 (F := Ideal) (m ((c : Thread nD τ).loc main_arg1))) (ix1 e)
def dst : Fin 1700000 → BitVec 32 :=
  fun e => Cert.ReferenceIdeal.ReadP.val_main_v6 (F := Ideal) (m ((c : Thread nD τ).loc main_arg1)) (ix1 e)
def dinv : Fin 100000 → EReal :=
  fun j => Cert.ReferenceIdeal.ReadP.val_main_v16 (F := Ideal) (m ((c : Thread nD τ).loc main_arg1)) (ix1 j)

def X : Fin 100000 → Fin 128 → EReal := fun i k => (m ((c : Thread nD τ).loc main_arg0) : S100000x128.Idx → EReal) (ix2 i k)
def Wa : Fin 128 → Fin 128 → EReal := fun k q => (m ((c : Thread nD τ).loc main_arg2) : S128x128.Idx → EReal) (ix2 k q)
def ba : Fin 128 → EReal := fun k => (m ((c : Thread nD τ).loc main_arg3) : S128.Idx → EReal) (ix1 k)
def Wb : Fin 128 → Fin 64 → EReal := fun k q => (m ((c : Thread nD τ).loc main_arg4) : S128x64.Idx → EReal) (ix2 k q)
def bb : Fin 64 → EReal := fun k => (m ((c : Thread nD τ).loc main_arg5) : S64.Idx → EReal) (ix1 k)
def Wl : Fin 64 → Fin 1 → EReal := fun k q => (m ((c : Thread nD τ).loc main_arg6) : S64x1.Idx → EReal) (ix2 k q)
def bl : EReal := (m ((c : Thread nD τ).loc main_arg7) : S1.Idx → EReal) (ix1 (0 : Fin 1))

/-! ## The three kernels' outputs are the boundary contents at their output arrays -/

theorem out0 : (W4 m ρ c (Proc.devRef .tc main_v21) : S100000x128.Idx → EReal) = (dat0 (V3 m ρ) c).arrAt 3 cfg0.N :=
  W4_arr m ρ c 3
theorem out1 : (W6 m ρ c (Proc.devRef .tc main_v33) : S100000x64.Idx → EReal) = (dat1 (V5 m ρ) c).arrAt 4 cfg1.N :=
  W6_arr m ρ c 4
theorem out2 : (W8 m ρ c (Proc.devRef .tc main_v45) : S100000x2.Idx → EReal) = (dat2 (V7 m ρ) c).arrAt 5 cfg2.N :=
  W8_arr m ρ c 5

/-! ## Stage by stage -/

/-- After the first kernel: the feature matrix times the first weights, each row scaled by its `dinv`. -/
theorem stage0 (j : Fin 100000) (k : Fin 128) :
    (W4 m ρ c (Proc.devRef .tc main_v21) : S100000x128.Idx → EReal) (ix2 j k)
      = scaled (dinv m c) (mm (X m c) (Wa m c)) j k := by
  rw [out0, region0 (V3 m ρ) c j k]
  unfold prescale
  rw [arg0_3, arg2_3, dinv_3]
  rfl

/-- After the first gather and scatter: the neighbour sum of those rows. -/
theorem stage1 (i : Fin 100000) (k : Fin 128) :
    (V5 m ρ c main_v32 : S100000x128.Idx → EReal) (ix2 i k)
      = nsum (sn m c) (dst m c) (scaled (dinv m c) (mm (X m c) (Wa m c))) i k := by
  have hf : (fun j q => (W4 m ρ c (Proc.devRef .tc main_v21) : S100000x128.Idx → EReal) (ix2 j q))
      = scaled (dinv m c) (mm (X m c) (Wa m c)) := funext fun j => funext fun q => stage0 m ρ c j q
  show (StableHlo.after (hostOps1 (F := Ideal)) (W4 m ρ c) (Proc.devRef .tc main_v32) : S100000x128.Idx → EReal) (ix2 i k) = _
  rw [stretch1_apply, src_4, dst_4, hf]
  rfl

/-- The second kernel's entry in the specification's words. -/
theorem aggMatmul_eq (H : S100000x128.Idx → EReal) (D : S100000x1.Idx → EReal) (B : S1x128.Idx → EReal) (W : S128x64.Idx → EReal)
    (i : Fin 100000) (q : Fin 64) :
    aggMatmul H D B W i q
      = scaled (fun j => D (ix2 j (0 : Fin 1)))
          (mm (finish (fun j => D (ix2 j (0 : Fin 1))) (fun i k => H (ix2 i k)) (fun k => B (ix2 (0 : Fin 1) k))) (fun k q => W (ix2 k q))) i q :=
  rfl

/-- The third kernel's entry in the specification's words (its `0 - logit` is `-logit`). -/
theorem finalPair_eq (H : S100000x64.Idx → EReal) (D : S100000x1.Idx → EReal) (B : S1x64.Idx → EReal) (W : S64x1.Idx → EReal)
    (b : S1x1.Idx → EReal) (i : Fin 100000) (q : Fin 2) :
    finalPair H D B W b i q
      = pair (head (finish (fun j => D (ix2 j (0 : Fin 1))) (fun i k => H (ix2 i k)) (fun k => B (ix2 (0 : Fin 1) k)))
          (fun k c => W (ix2 k c)) (b (ix2 (0 : Fin 1) (0 : Fin 1)))) i q := by
  unfold finalPair pair
  rw [zero_sub]
  rfl

/-- After the second kernel: the first layer's activations times the second weights, each row scaled by its `dinv`. -/
theorem stage2 (j : Fin 100000) (k : Fin 64) :
    (W6 m ρ c (Proc.devRef .tc main_v33) : S100000x64.Idx → EReal) (ix2 j k)
      = scaled (dinv m c) (mm (kLayer (sn m c) (dst m c) (dinv m c) (X m c) (Wa m c) (ba m c)) (Wb m c)) j k := by
  have hH : (fun i q => (V5 m ρ c main_v32 : S100000x128.Idx → EReal) (ix2 i q))
      = nsum (sn m c) (dst m c) (scaled (dinv m c) (mm (X m c) (Wa m c))) := funext fun i => funext fun q => stage1 m ρ c i q
  have hD : (fun i => (V5 m ρ c main_v17 : S100000x1.Idx → EReal) (ix2 i (0 : Fin 1))) = dinv m c :=
    funext fun i => dinv_5 m ρ c i
  have hB : (fun q => (V5 m ρ c main_v18 : S1x128.Idx → EReal) (ix2 (0 : Fin 1) q)) = ba m c := funext fun q => b0_5 m ρ c q
  have hW : (fun i q => (V5 m ρ c main_arg4 : S128x64.Idx → EReal) (ix2 i q)) = Wb m c := by rw [arg4_5]; rfl
  rw [out1, region1 (V5 m ρ) c j k, aggMatmul_eq, hH, hD, hB, hW]
  rfl

/-- After the second gather and scatter. -/
theorem stage3 (i : Fin 100000) (k : Fin 64) :
    (V7 m ρ c main_v44 : S100000x64.Idx → EReal) (ix2 i k)
      = nsum (sn m c) (dst m c)
          (scaled (dinv m c) (mm (kLayer (sn m c) (dst m c) (dinv m c) (X m c) (Wa m c) (ba m c)) (Wb m c))) i k := by
  have hf : (fun j q => (W6 m ρ c (Proc.devRef .tc main_v33) : S100000x64.Idx → EReal) (ix2 j q))
      = scaled (dinv m c) (mm (kLayer (sn m c) (dst m c) (dinv m c) (X m c) (Wa m c) (ba m c)) (Wb m c)) :=
    funext fun j => funext fun q => stage2 m ρ c j q
  show (StableHlo.after (hostOps2 (F := Ideal)) (W6 m ρ c) (Proc.devRef .tc main_v44) : S100000x64.Idx → EReal) (ix2 i k) = _
  rw [stretch2_apply, src_6, dst_6, hf]
  rfl

/-- The program's result at `(i, q)`. -/
theorem result (i : Fin 100000) (q : Fin 2) :
    (W8 m ρ c (Proc.devRef .tc main_v45) : S100000x2.Idx → EReal) (ix2 i q)
      = kNet (sn m c) (dst m c) (dinv m c) (X m c) (Wa m c) (ba m c) (Wb m c) (bb m c) (Wl m c) (bl m c) i q := by
  have hH : (fun j k => (V7 m ρ c main_v44 : S100000x64.Idx → EReal) (ix2 j k))
      = nsum (sn m c) (dst m c)
          (scaled (dinv m c) (mm (kLayer (sn m c) (dst m c) (dinv m c) (X m c) (Wa m c) (ba m c)) (Wb m c))) :=
    funext fun j => funext fun k => stage3 m ρ c j k
  have hD : (fun j => (V7 m ρ c main_v17 : S100000x1.Idx → EReal) (ix2 j (0 : Fin 1))) = dinv m c :=
    funext fun j => dinv_7 m ρ c j
  have hB : (fun k => (V7 m ρ c main_v19 : S1x64.Idx → EReal) (ix2 (0 : Fin 1) k)) = bb m c := funext fun k => b1_7 m ρ c k
  have hW : (fun k q => (V7 m ρ c main_arg6 : S64x1.Idx → EReal) (ix2 k q)) = Wl m c := by rw [arg6_7]; rfl
  rw [out2, region2 (V7 m ρ) c i q, finalPair_eq, hH, hD, hB, hW, bl_7]
  rfl

end Cert.KernelIdeal.Net

end
-- ==== Proof.ReferenceValue.lean ====
/-
  The reference program read as the two-layer graph convolution with a linear head.

  The reference gathers, for every edge slot, a row of the product of the features and the weights at the slot's wrapped
  source word, scales it by the two ends' inverse square-root degrees, adds the scaled rows into the rows named by the raw
  destination words, adds the bias and floors at zero; twice; then takes the linear head and returns the pair
  (minus the logit, the logit). Read one operation at a time and at explicit coordinates, its result at node `i` and
  column `q` is the specification's reference network of the slot words and the inverse square-root degrees that the
  program itself computes from the edge list. Two side facts about those: a slot whose raw destination word, read signed,
  names a node keeps that node after wrapping and clamping; and every inverse square-root degree is a real number, since
  the degree is floored at one before the inverse square root is taken.
-/
import Idealize.ShloMosaic.Lib.IdealHost
import proofs.«165097_j8383776162491_2_alg».proof.Proof.ReferenceReadP
import proofs.«165097_j8383776162491_2_alg».proof.Proof.Spec
import proofs.«165097_j8383776162491_2_alg».proof.Proof.LibRowGather
import proofs.«165097_j8383776162491_2_alg».proof.Proof.LibScatterRows
import proofs.«165097_j8383776162491_2_alg».proof.Proof.LibFiniteReals

noncomputable section

open scoped BigOperators

open Idealize.ShloMosaic Idealize.ShloMosaic.ValueIdx Cert.ReferenceIdeal Cert.ReferenceIdeal.Gen Cert.ReferenceIdeal.ReadP
open FiniteReals Cert.Gcn

namespace Cert.ReferenceIdeal.RefValue

/-! ## A gather of single elements of a vector, read at a coordinate

A `stablehlo.gather` of a vector `[N]` at a column `[R, 1]` of start indices with no offset axis, collapsed axis [0],
start index map [0] and slices `[1]`: result element `e` is the vector at `idx[e, 0]`, read as a signed integer and
clamped into `[0, N − 1]`. -/

section VecGather
variable {α : Type}

abbrev vecTakeDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecTakeDims N R wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecTakeDims N R wf).start (ix1 e) idx 0 + (vecTakeDims N R wf).batchCoord (ix1 e) 0
      + (vecTakeDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecTakeDims N R wf).startIndexMap from List.mem_singleton.mpr rfl)]
  have hsi : (vecTakeDims N R wf).siIdx (ix1 e) ⟨List.idxOf (0 : Fin 1) (vecTakeDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end VecGather

/-! ## The slot words and the inverse square-root degrees the program computes from the edge list -/

/-- The wrapped source word of slot `e`: a negative word has had the node count added. -/
def snOf (x1 : (⟨S2x1600000, .i32⟩ : BufTy).Contents (Elt Ideal)) : Fin 1700000 → BitVec 32 :=
  fun e => val_main_v21 (F := Ideal) x1 (ix1 e)

/-- The wrapped destination word of slot `e`. -/
def dnOf (x1 : (⟨S2x1600000, .i32⟩ : BufTy).Contents (Elt Ideal)) : Fin 1700000 → BitVec 32 :=
  fun e => val_main_v28 (F := Ideal) x1 (ix1 e)

/-- The raw destination word of slot `e`, which the accumulating scatters read. -/
def dstOf (x1 : (⟨S2x1600000, .i32⟩ : BufTy).Contents (Elt Ideal)) : Fin 1700000 → BitVec 32 :=
  fun e => val_main_v6 (F := Ideal) x1 (ix1 e)

/-- The inverse square root of node `j`'s in-degree floored at one, and zero where the in-degree is not positive. -/
def dinvOf (x1 : (⟨S2x1600000, .i32⟩ : BufTy).Contents (Elt Ideal)) : Fin 100000 → EReal :=
  fun j => val_main_v16 (F := Ideal) x1 (ix1 j)

/-- A word that, read signed, is a node number is not negative: the signed comparison with zero fails. -/
theorem slt_zero_of_toInt {w : BitVec 32} {i : Fin 100000} (h : w.toInt = (i.val : ℤ)) :
    IntOp.cmpi .slt w 0#32 = 0#1 := by
  have hn : ¬ w.toInt < 0 := by omega
  simp [IntOp.cmpi, BitVec.slt, hn]

/-- A slot whose raw destination word, read signed, is node `i` is not wrapped, and the clamp keeps `i`. -/
theorem lands (x1 : (⟨S2x1600000, .i32⟩ : BufTy).Contents (Elt Ideal)) : Lands (dnOf x1) (dstOf x1) := by
  intro e i h
  apply rowAt_of_toInt
  have h' : (val_main_v6 (F := Ideal) x1 (ix1 e)).toInt = (i.val : ℤ) := h
  show (val_main_v28 (F := Ideal) x1 (ix1 e)).toInt = (i.val : ℤ)
  rw [val_main_v28_apply, val_main_v25_apply, val_main_v24_apply, val_main_c_5_apply, slt_zero_of_toInt h', select_zero]
  exact h'

/-- The inverse square root of an extended real that is at least one is a real number: at the upper infinity it is zero,
    at a real it is the inverse of the square root. -/
theorem isReal_rsqrt_of_one_le : ∀ y : EReal, 1 ≤ y → IsReal (Ideal.rsqrt y)
  | ⊥, h => by
    have h1 : (1 : EReal) = ⊥ := le_bot_iff.mp h
    rw [← EReal.coe_one] at h1
    exact absurd h1 (EReal.coe_ne_bot 1)
  | ⊤, _ => ⟨0, by simp⟩
  | (r : ℝ), h => by
    have hr : (1 : ℝ) ≤ r := by exact_mod_cast h
    refine ⟨(Real.sqrt r)⁻¹, ?_⟩
    rw [Ideal.rsqrt_coe, if_neg (by linarith), if_neg (by linarith)]

/-- Every inverse square-root degree is a real number, whatever the degree: the degree is floored at one first. -/
theorem dinv_real (x1 : (⟨S2x1600000, .i32⟩ : BufTy).Contents (Elt Ideal)) (j : Fin 100000) : IsReal (dinvOf x1 j) := by
  show IsReal (val_main_v16 (F := Ideal) x1 (ix1 j))
  rw [val_main_v16_apply, val_main_v15_apply, val_main_v14_apply, val_main_v13_apply, val_main_cst_2_apply,
    val_main_call0_v1_apply, val_main_call0_v0_apply, val_main_cst_3_apply]
  generalize val_main_v12 (F := Ideal) x1 (ix1 j) = b
  generalize val_main_v10 (F := Ideal) x1 (ix1 j) = d
  unfold Scalar.select
  split
  · show IsReal (Ideal.rsqrt (max d (Ideal.ofBits .f32 0x3F800000#32)))
    exact isReal_rsqrt_of_one_le _ (by rw [Ideal.ofBits_one_f32]; exact le_max_right _ _)
  · show IsReal (Ideal.ofBits .f32 0x00000000#32)
    rw [Ideal.ofBits_zero_f32]; exact isReal_zero

/-! ## The program's gathers read at coordinates, the clamped row named by `rowAt` -/

theorem gather_vec_rowAt {α : Type} (x : S100000.Idx → α) (idx : S1700000x1.Idx → BitVec 32) (e : Fin 1700000) :
    Host.gather gather_S100000_S1700000x1_S1700000_n_0_n_n_0_1_1 x idx (ix1 e)
      = x (ix1 (rowAt (idx (ix2 e (0 : Fin 1))))) :=
  gather_vec_apply (N := 100000) (R := 1700000) (by norm_num)
    gather_S100000_S1700000x1_S1700000_n_0_n_n_0_1_1_wf x idx e

theorem gather_rows128_rowAt {α : Type} (x : S100000x128.Idx → α) (idx : S1700000x1.Idx → BitVec 32)
    (e : Fin 1700000) (c : Fin 128) :
    Host.gather gather_S100000x128_S1700000x1_S1700000x128_1_0_n_n_0_1_1128 x idx (ix2 e c)
      = x (ix2 (rowAt (idx (ix2 e (0 : Fin 1)))) c) :=
  Cert.Lib.RowGather.gather_rows_apply (N := 100000) (R := 1700000) (C := 128) (by norm_num)
    gather_S100000x128_S1700000x1_S1700000x128_1_0_n_n_0_1_1128_wf x idx e c

theorem gather_rows64_rowAt {α : Type} (x : S100000x64.Idx → α) (idx : S1700000x1.Idx → BitVec 32)
    (e : Fin 1700000) (c : Fin 64) :
    Host.gather gather_S100000x64_S1700000x1_S1700000x64_1_0_n_n_0_1_164 x idx (ix2 e c)
      = x (ix2 (rowAt (idx (ix2 e (0 : Fin 1)))) c) :=
  Cert.Lib.RowGather.gather_rows_apply (N := 100000) (R := 1700000) (C := 64) (by norm_num)
    gather_S100000x64_S1700000x1_S1700000x64_1_0_n_n_0_1_164_wf x idx e c

/-! ## Index columns

The index and scale columns `[1700000, 1]` are broadcasts of vectors `[1700000]`: entry `(e, 0)` is entry `e`. -/

theorem col_v22 (e : Fin 1700000) : idx_main_v22 (ix2 e (0 : Fin 1)) = ix1 e :=
  funext fun a => by match a with | ⟨0, _⟩ => rfl
theorem col_v29 (e : Fin 1700000) : idx_main_v29 (ix2 e (0 : Fin 1)) = ix1 e :=
  funext fun a => by match a with | ⟨0, _⟩ => rfl
theorem col_v38 (e : Fin 1700000) : idx_main_v38 (ix2 e (0 : Fin 1)) = ix1 e :=
  funext fun a => by match a with | ⟨0, _⟩ => rfl
theorem col_v44 (e : Fin 1700000) : idx_main_v44 (ix2 e (0 : Fin 1)) = ix1 e :=
  funext fun a => by match a with | ⟨0, _⟩ => rfl
theorem col_v56 (e : Fin 1700000) : idx_main_v56 (ix2 e (0 : Fin 1)) = ix1 e :=
  funext fun a => by match a with | ⟨0, _⟩ => rfl
theorem col_v62 (e : Fin 1700000) : idx_main_v62 (ix2 e (0 : Fin 1)) = ix1 e :=
  funext fun a => by match a with | ⟨0, _⟩ => rfl
theorem col_v40 (e : Fin 1700000) : idx_main_v40 (ix2 e (0 : Fin 1)) = ix1 e :=
  funext fun a => by match a with | ⟨0, _⟩ => rfl
theorem col_v58 (e : Fin 1700000) : idx_main_v58 (ix2 e (0 : Fin 1)) = ix1 e :=
  funext fun a => by match a with | ⟨0, _⟩ => rfl

/-- The three wrapped source columns the program computes are the same function of the edge list. -/
theorem v38_at (x1 : (⟨S2x1600000, .i32⟩ : BufTy).Contents (Elt Ideal)) (e : Fin 1700000) : val_main_v38 (F := Ideal) x1 (ix2 e (0 : Fin 1)) = snOf x1 e := by
  rw [val_main_v38_apply, col_v38]; rfl

theorem v56_at (x1 : (⟨S2x1600000, .i32⟩ : BufTy).Contents (Elt Ideal)) (e : Fin 1700000) : val_main_v56 (F := Ideal) x1 (ix2 e (0 : Fin 1)) = snOf x1 e := by
  rw [val_main_v56_apply, col_v56]; rfl

theorem v22_at (x1 : (⟨S2x1600000, .i32⟩ : BufTy).Contents (Elt Ideal)) (e : Fin 1700000) : val_main_v22 (F := Ideal) x1 (ix2 e (0 : Fin 1)) = snOf x1 e := by
  rw [val_main_v22_apply, col_v22]; rfl

theorem v29_at (x1 : (⟨S2x1600000, .i32⟩ : BufTy).Contents (Elt Ideal)) (e : Fin 1700000) : val_main_v29 (F := Ideal) x1 (ix2 e (0 : Fin 1)) = dnOf x1 e := by
  rw [val_main_v29_apply, col_v29]; rfl

theorem v44_at (x1 : (⟨S2x1600000, .i32⟩ : BufTy).Contents (Elt Ideal)) (e : Fin 1700000) : val_main_v44 (F := Ideal) x1 (ix2 e (0 : Fin 1)) = dstOf x1 e := by
  rw [val_main_v44_apply, col_v44]; rfl

theorem v62_at (x1 : (⟨S2x1600000, .i32⟩ : BufTy).Contents (Elt Ideal)) (e : Fin 1700000) : val_main_v62 (F := Ideal) x1 (ix2 e (0 : Fin 1)) = dstOf x1 e := by
  rw [val_main_v62_apply, col_v62]; rfl

/-! ## The scale of a slot: the product of the two ends' inverse square-root degrees -/

theorem v23_at (x1 : (⟨S2x1600000, .i32⟩ : BufTy).Contents (Elt Ideal)) (e : Fin 1700000) :
    val_main_v23 (F := Ideal) x1 (ix1 e) = dinvOf x1 (rowAt (snOf x1 e)) := by
  unfold val_main_v23
  rw [gather_vec_rowAt, v22_at]; rfl

theorem v30_at (x1 : (⟨S2x1600000, .i32⟩ : BufTy).Contents (Elt Ideal)) (e : Fin 1700000) :
    val_main_v30 (F := Ideal) x1 (ix1 e) = dinvOf x1 (rowAt (dnOf x1 e)) := by
  unfold val_main_v30
  rw [gather_vec_rowAt, v29_at]; rfl

theorem v31_at (x1 : (⟨S2x1600000, .i32⟩ : BufTy).Contents (Elt Ideal)) (e : Fin 1700000) :
    val_main_v31 (F := Ideal) x1 (ix1 e) = dinvOf x1 (rowAt (snOf x1 e)) * dinvOf x1 (rowAt (dnOf x1 e)) := by
  rw [val_main_v31_apply, Ideal.mulf_def, v23_at, v30_at]

/-! ## The first layer -/

theorem v32_at (x0 : (⟨S100000x128, .f32⟩ : BufTy).Contents (Elt Ideal)) (x2 : (⟨S128x128, .f32⟩ : BufTy).Contents (Elt Ideal)) (j : Fin 100000) (c : Fin 128) :
    val_main_v32 (F := Ideal) x0 x2 (ix2 j c) = mm (fun i k => x0 (ix2 i k)) (fun k c => x2 (ix2 k c)) j c := by
  rw [val_main_v32_apply]
  unfold mm
  refine Finset.sum_congr rfl fun k _ => ?_
  have hl : lidx_main_v32 (ix2 j c) k = ix2 j k :=
    funext fun a => by match a with | ⟨0, _⟩ => rfl | ⟨1, _⟩ => rfl
  have hr : ridx_main_v32 (ix2 j c) k = ix2 k c :=
    funext fun a => by match a with | ⟨0, _⟩ => rfl | ⟨1, _⟩ => rfl
  rw [hl, hr]

theorem v39_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (e : Fin 1700000) (c : Fin 128) :
    val_main_v39 (F := Ideal) x0 x1 x2 (ix2 e c)
      = mm (fun i k => x0 (ix2 i k)) (fun k c => x2 (ix2 k c)) (rowAt (snOf x1 e)) c := by
  unfold val_main_v39
  rw [gather_rows128_rowAt, v38_at]
  exact v32_at x0 x2 (rowAt (snOf x1 e)) c

theorem v41_at (x1 : (⟨S2x1600000, .i32⟩ : BufTy).Contents (Elt Ideal)) (e : Fin 1700000) (c : Fin 128) :
    val_main_v41 (F := Ideal) x1 (ix2 e c) = val_main_v31 (F := Ideal) x1 (ix1 e) := by
  have h1 : idx_main_v41 (ix2 e c) = ix2 e (0 : Fin 1) :=
    funext fun a => by match a with | ⟨0, _⟩ => rfl | ⟨1, _⟩ => rfl
  rw [val_main_v41_apply, h1, val_main_v40_apply, col_v40]

theorem v42_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (e : Fin 1700000) (c : Fin 128) :
    val_main_v42 (F := Ideal) x0 x1 x2 (ix2 e c)
      = mm (fun i k => x0 (ix2 i k)) (fun k c => x2 (ix2 k c)) (rowAt (snOf x1 e)) c
          * (dinvOf x1 (rowAt (snOf x1 e)) * dinvOf x1 (rowAt (dnOf x1 e))) := by
  rw [val_main_v42_apply, Ideal.mulf_def, v39_at, v41_at, v31_at]

theorem v45_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (i : Fin 100000) (c : Fin 128) :
    val_main_v45 (F := Ideal) x0 x1 x2 (ix2 i c)
      = ∑ e ∈ into (dstOf x1) i, mm (fun i k => x0 (ix2 i k)) (fun k c => x2 (ix2 k c)) (rowAt (snOf x1 e)) c
          * (dinvOf x1 (rowAt (snOf x1 e)) * dinvOf x1 (rowAt (dnOf x1 e))) := by
  unfold val_main_v45
  refine (Cert.Lib.ScatterRows.scatterAdd_rows_apply (N := 100000) (R := 1700000) (C := 128)
    scatter_S100000x128_S1700000x1_S1700000x128_1_0_0_1_wf _ _ _ i c).trans ?_
  rw [val_main_v43_apply, val_main_cst_9_apply]
  show Ideal.ofBits .f32 0x00000000#32 + _ = _
  rw [Ideal.ofBits_zero_f32, zero_add]
  have hf : (Finset.univ.filter fun e : Fin 1700000 =>
      (val_main_v44 (F := Ideal) x1 (ix2 e (0 : Fin 1))).toInt = (i.val : ℤ)) = into (dstOf x1) i := by
    unfold into
    exact Finset.filter_congr fun e _ => by rw [v44_at]
  exact Finset.sum_congr hf fun e _ => v42_at x0 x1 x2 e c

theorem v47_at (x3 : (⟨S128, .f32⟩ : BufTy).Contents (Elt Ideal)) (i : Fin 100000) (c : Fin 128) : val_main_v47 (F := Ideal) x3 (ix2 i c) = x3 (ix1 c) := by
  rw [val_main_v47_apply, val_main_v46_apply]
  exact congrArg (fun z => x3 z) (funext fun a => by match a with | ⟨0, _⟩ => rfl)

/-- The first layer's output at node `i`, column `c`. -/
theorem v49_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (i : Fin 100000) (c : Fin 128) :
    val_main_v49 (F := Ideal) x0 x1 x2 x3 (ix2 i c)
      = rLayer (snOf x1) (dnOf x1) (dstOf x1) (dinvOf x1) (fun i k => x0 (ix2 i k)) (fun k c => x2 (ix2 k c))
          (fun c => x3 (ix1 c)) i c := by
  rw [val_main_v49_apply, val_main_v48_apply, v45_at, v47_at, val_main_call1_v0_apply, val_main_call1_cst_apply]
  show max (_ + _) (Ideal.ofBits .f32 0x00000000#32) = _
  rw [Ideal.ofBits_zero_f32]
  rfl

/-! ## The second layer -/

theorem v50_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (j : Fin 100000) (c : Fin 64) :
    val_main_v50 (F := Ideal) x0 x1 x2 x3 x4 (ix2 j c)
      = mm (fun i k => val_main_v49 (F := Ideal) x0 x1 x2 x3 (ix2 i k)) (fun k c => x4 (ix2 k c)) j c := by
  rw [val_main_v50_apply]
  unfold mm
  refine Finset.sum_congr rfl fun k _ => ?_
  have hl : lidx_main_v50 (ix2 j c) k = ix2 j k :=
    funext fun a => by match a with | ⟨0, _⟩ => rfl | ⟨1, _⟩ => rfl
  have hr : ridx_main_v50 (ix2 j c) k = ix2 k c :=
    funext fun a => by match a with | ⟨0, _⟩ => rfl | ⟨1, _⟩ => rfl
  rw [hl, hr]

theorem v57_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (e : Fin 1700000) (c : Fin 64) :
    val_main_v57 (F := Ideal) x0 x1 x2 x3 x4 (ix2 e c)
      = mm (fun i k => val_main_v49 (F := Ideal) x0 x1 x2 x3 (ix2 i k)) (fun k c => x4 (ix2 k c)) (rowAt (snOf x1 e)) c := by
  unfold val_main_v57
  rw [gather_rows64_rowAt, v56_at]
  exact v50_at x0 x1 x2 x3 x4 (rowAt (snOf x1 e)) c

theorem v59_at (x1 : (⟨S2x1600000, .i32⟩ : BufTy).Contents (Elt Ideal)) (e : Fin 1700000) (c : Fin 64) :
    val_main_v59 (F := Ideal) x1 (ix2 e c) = val_main_v31 (F := Ideal) x1 (ix1 e) := by
  have h1 : idx_main_v59 (ix2 e c) = ix2 e (0 : Fin 1) :=
    funext fun a => by match a with | ⟨0, _⟩ => rfl | ⟨1, _⟩ => rfl
  rw [val_main_v59_apply, h1, val_main_v58_apply, col_v58]

theorem v60_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (e : Fin 1700000) (c : Fin 64) :
    val_main_v60 (F := Ideal) x0 x1 x2 x3 x4 (ix2 e c)
      = mm (fun i k => val_main_v49 (F := Ideal) x0 x1 x2 x3 (ix2 i k)) (fun k c => x4 (ix2 k c)) (rowAt (snOf x1 e)) c
          * (dinvOf x1 (rowAt (snOf x1 e)) * dinvOf x1 (rowAt (dnOf x1 e))) := by
  rw [val_main_v60_apply, Ideal.mulf_def, v57_at, v59_at, v31_at]

theorem v63_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (i : Fin 100000) (c : Fin 64) :
    val_main_v63 (F := Ideal) x0 x1 x2 x3 x4 (ix2 i c)
      = ∑ e ∈ into (dstOf x1) i,
          mm (fun i k => val_main_v49 (F := Ideal) x0 x1 x2 x3 (ix2 i k)) (fun k c => x4 (ix2 k c)) (rowAt (snOf x1 e)) c
            * (dinvOf x1 (rowAt (snOf x1 e)) * dinvOf x1 (rowAt (dnOf x1 e))) := by
  unfold val_main_v63
  refine (Cert.Lib.ScatterRows.scatterAdd_rows_apply (N := 100000) (R := 1700000) (C := 64)
    scatter_S100000x64_S1700000x1_S1700000x64_1_0_0_1_wf _ _ _ i c).trans ?_
  rw [val_main_v61_apply, val_main_cst_12_apply]
  show Ideal.ofBits .f32 0x00000000#32 + _ = _
  rw [Ideal.ofBits_zero_f32, zero_add]
  have hf : (Finset.univ.filter fun e : Fin 1700000 =>
      (val_main_v62 (F := Ideal) x1 (ix2 e (0 : Fin 1))).toInt = (i.val : ℤ)) = into (dstOf x1) i := by
    unfold into
    exact Finset.filter_congr fun e _ => by rw [v62_at]
  exact Finset.sum_congr hf fun e _ => v60_at x0 x1 x2 x3 x4 e c

theorem v65_at (x5 : (⟨S64, .f32⟩ : BufTy).Contents (Elt Ideal)) (i : Fin 100000) (c : Fin 64) : val_main_v65 (F := Ideal) x5 (ix2 i c) = x5 (ix1 c) := by
  rw [val_main_v65_apply, val_main_v64_apply]
  exact congrArg (fun z => x5 z) (funext fun a => by match a with | ⟨0, _⟩ => rfl)

/-- The second layer's output at node `i`, column `c`, over the first layer's output as a function of coordinates. -/
theorem v67_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (i : Fin 100000) (c : Fin 64) :
    val_main_v67 (F := Ideal) x0 x1 x2 x3 x4 x5 (ix2 i c)
      = rLayer (snOf x1) (dnOf x1) (dstOf x1) (dinvOf x1)
          (rLayer (snOf x1) (dnOf x1) (dstOf x1) (dinvOf x1) (fun i k => x0 (ix2 i k)) (fun k c => x2 (ix2 k c))
            (fun c => x3 (ix1 c)))
          (fun k c => x4 (ix2 k c)) (fun c => x5 (ix1 c)) i c := by
  have h49 : (fun (i : Fin 100000) (k : Fin 128) => val_main_v49 (F := Ideal) x0 x1 x2 x3 (ix2 i k))
      = rLayer (snOf x1) (dnOf x1) (dstOf x1) (dinvOf x1) (fun i k => x0 (ix2 i k)) (fun k c => x2 (ix2 k c))
          (fun c => x3 (ix1 c)) := funext fun i => funext fun k => v49_at x0 x1 x2 x3 i k
  rw [val_main_v67_apply, val_main_v66_apply, v63_at, v65_at, val_main_call2_v0_apply, val_main_call2_cst_apply, h49]
  show max (_ + _) (Ideal.ofBits .f32 0x00000000#32) = _
  rw [Ideal.ofBits_zero_f32]
  rfl

/-! ## The head and the pair -/

theorem v72_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) (i : Fin 100000) :
    val_main_v72 (F := Ideal) x0 x1 x2 x3 x4 x5 x6 x7 (ix1 i)
      = head (fun i k => val_main_v67 (F := Ideal) x0 x1 x2 x3 x4 x5 (ix2 i k)) (fun k c => x6 (ix2 k c)) (x7 (ix1 0)) i := by
  have h72 : idx_main_v72 (ix1 i) = ix2 i (0 : Fin 1) :=
    funext fun a => by
      match a with
      | ⟨0, _⟩ => exact Fin.ext (Nat.div_one _)
      | ⟨1, _⟩ => rfl
  rw [val_main_v72_apply, h72, val_main_v71_apply, val_main_v68_apply, val_main_v70_apply, val_main_v69_apply]
  unfold head mm
  show (∑ k : Fin 64, _) + _ = (∑ k : Fin 64, _) + _
  refine congrArg₂ (fun a b : EReal => a + b) ?_ ?_
  · refine Finset.sum_congr rfl fun k _ => ?_
    have hl : lidx_main_v68 (ix2 i (0 : Fin 1)) k = ix2 i k :=
      funext fun a => by match a with | ⟨0, _⟩ => rfl | ⟨1, _⟩ => rfl
    have hr : ridx_main_v68 (ix2 i (0 : Fin 1)) k = ix2 k (0 : Fin 1) :=
      funext fun a => by match a with | ⟨0, _⟩ => rfl | ⟨1, _⟩ => rfl
    rw [hl, hr]
  · exact congrArg (fun z => x7 z) (funext fun a => by match a with | ⟨0, _⟩ => rfl)

theorem result_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) (i : Fin 100000) (q : Fin 2) :
    val_main_v76 (F := Ideal) x0 x1 x2 x3 x4 x5 x6 x7 (ix2 i q)
      = rNet (snOf x1) (dnOf x1) (dstOf x1) (dinvOf x1) (fun i k => x0 (ix2 i k)) (fun k c => x2 (ix2 k c))
          (fun c => x3 (ix1 c)) (fun k c => x4 (ix2 k c)) (fun c => x5 (ix1 c)) (fun k c => x6 (ix2 k c)) (x7 (ix1 0)) i q := by
  have h67 : (fun (i : Fin 100000) (k : Fin 64) => val_main_v67 (F := Ideal) x0 x1 x2 x3 x4 x5 (ix2 i k))
      = rLayer (snOf x1) (dnOf x1) (dstOf x1) (dinvOf x1)
          (rLayer (snOf x1) (dnOf x1) (dstOf x1) (dinvOf x1) (fun i k => x0 (ix2 i k)) (fun k c => x2 (ix2 k c))
            (fun c => x3 (ix1 c)))
          (fun k c => x4 (ix2 k c)) (fun c => x5 (ix1 c)) :=
    funext fun i => funext fun k => v67_at x0 x1 x2 x3 x4 x5 i k
  have hlg : val_main_v72 (F := Ideal) x0 x1 x2 x3 x4 x5 x6 x7 (ix1 i)
      = head (rLayer (snOf x1) (dnOf x1) (dstOf x1) (dinvOf x1)
          (rLayer (snOf x1) (dnOf x1) (dstOf x1) (dinvOf x1) (fun i k => x0 (ix2 i k)) (fun k c => x2 (ix2 k c))
            (fun c => x3 (ix1 c)))
          (fun k c => x4 (ix2 k c)) (fun c => x5 (ix1 c))) (fun k c => x6 (ix2 k c)) (x7 (ix1 0)) i := by
    rw [v72_at, h67]
  have c74 : idx_main_v74 (ix2 i (0 : Fin 1)) = ix1 i := funext fun a => by match a with | ⟨0, _⟩ => rfl
  have c75 : idx_main_v75 (ix2 i (0 : Fin 1)) = ix1 i := funext fun a => by match a with | ⟨0, _⟩ => rfl
  unfold rNet pair val_main_v76
  match q with
  | ⟨0, _⟩ =>
    refine (concatenate_pair_apply_left (t := S100000x2) (s₁ := S100000x1) (s₂ := S100000x1) (1 : Fin 2) _ _
      concatenates_S100000x1_S100000x1_S100000x2_d1 _ rfl (ix2 i (0 : Fin 1)) (fun b => by
        match b with
        | ⟨0, _⟩ => rfl
        | ⟨1, _⟩ => rfl)).trans ?_
    refine Eq.trans ?_ (if_pos rfl).symm
    rw [val_main_v74_apply, c74, val_main_v73_apply, hlg, Ideal.hostNegf_def, Ideal.negf_def]
  | ⟨1, _⟩ =>
    refine (concatenate_pair_apply_right (t := S100000x2) (s₁ := S100000x1) (s₂ := S100000x1) (1 : Fin 2) _ _
      concatenates_S100000x1_S100000x1_S100000x2_d1 _ rfl rfl (ix2 i (0 : Fin 1)) (fun b hb => by
        match b with
        | ⟨0, _⟩ => rfl
        | ⟨1, _⟩ => exact absurd rfl hb) rfl).trans ?_
    refine Eq.trans ?_ (if_neg Nat.one_ne_zero).symm
    rw [val_main_v75_apply, c75, hlg]

end Cert.ReferenceIdeal.RefValue

end
-- ==== Proof.FiniteInputs.lean ====
/-
  What the precondition says: every entry of the feature matrix, of the two layers' weights and of the first layer's
  bias is a real number.

  The precondition is the conjunction, over the float arguments, of "every entry has absolute value below +∞". On the
  extended reals the absolute value is `max x (-x)`, the word 0x7F800000 denotes +∞, and `max x (-x) < ⊤` excludes both
  infinities.
-/
import proofs.«165097_j8383776162491_2_alg».proof.Defs
import proofs.«165097_j8383776162491_2_alg».proof.Proof.Gen.Pre_finite_inputs
import proofs.«165097_j8383776162491_2_alg».proof.Proof.LibFiniteReals
import Idealize.ShloMosaic.Lib.ReduceAll
import Idealize.ShloMosaic.Lib.ValueIdx
import Idealize.ShloMosaic.Lib.Pipeline.Value

set_option maxRecDepth 16384

noncomputable section

namespace Cert.FiniteInputs

open Idealize.ShloMosaic Idealize.ShloMosaic.ValueIdx FiniteReals
open Cert.Pre_finite_inputs

instance : Subsingleton S_.Idx := ⟨fun a b => funext fun d => d.elim0⟩

/-- The word of +∞ denotes the top element. -/
theorem inf_word : Ideal.ofBits .f32 0x7F800000#32 = (⊤ : EReal) := by
  simp [Ideal.ofBits, Ideal.ieee]

/-- An extended real whose absolute value compares below +∞ is a real number. -/
theorem isReal_of_abs_lt {x : EReal} (h : Ideal.cmp .olt (max x (-x)) (⊤ : EReal) = 1#1) : IsReal x := by
  have hlt : max x (-x) < ⊤ := by
    unfold Ideal.cmp at h
    by_contra hc
    simp [hc] at h
  refine isReal_iff.mpr ⟨?_, ?_⟩
  · rintro rfl
    simp at hlt
  · rintro rfl
    simp at hlt

section entries

variable [Cert.Pre_finite_inputs.Facts]

/-- One conjunct of the precondition, read at an entry. -/
theorem entry_real {s : Shape} {axes : List (Fin s.rank)} (x : FVec Ideal s .f32) (hb : S_.BroadcastsInDim s (![] : Fin 0 → Fin s.rank))
    (hr : s.ReducesTo axes S_) (init : IVec S_ 1)
    (h : Host.reduce IntOp.andi (cmpf .olt (Host.absf x) (broadcastInDim s ![] hb (constant (F := Ideal) S_ .f32 0x7F800000#32))) init hr Facts.h_S_ ix0 = 1#1)
    (i : s.Idx) : IsReal (x i) := by
  have e := Host.reduce_andi_all _ init hr Facts.h_S_ ix0 h i
  have e' : Ideal.cmp .olt (max (x i) (-(x i)))
      (broadcastInDim s ![] hb (constant (F := Ideal) S_ .f32 0x7F800000#32) i) = 1#1 := e
  rw [broadcastInDim_apply _ _ _ _ (fun a => a.elim0) (fun a => a.elim0), constant_apply, inf_word] at e'
  exact isReal_of_abs_lt e'

/-- A conjunction of two one-bit flags that is set has both flags set. -/
theorem split {a b : IVec S_ 1} (h : andi a b ix0 = 1#1) : a ix0 = 1#1 ∧ b ix0 = 1#1 := IntOp.andi_eq_one.mp h

/-- Under the precondition the feature matrix, the first layer's weights and bias and the second layer's weights hold
    real numbers only (the remaining three arguments are finite too, which the equivalence does not use). -/
theorem of_pre (x0 : FVec Ideal S100000x128 .f32) (x1 : IVec S2x1600000 32) (x2 : FVec Ideal S128x128 .f32) (x3 : FVec Ideal S128 .f32)
    (x4 : FVec Ideal S128x64 .f32) (x5 : FVec Ideal S64 .f32) (x6 : FVec Ideal S64x1 .f32) (x7 : FVec Ideal S1 .f32)
    (h : fn (F := Ideal) x0 x1 x2 x3 x4 x5 x6 x7 = fun _ => 1#1) :
    (∀ i, IsReal (x0 i)) ∧ (∀ i, IsReal (x2 i)) ∧ (∀ i, IsReal (x3 i)) ∧ (∀ i, IsReal (x4 i)) := by
  have h0 := congrFun h ix0
  dsimp only [fn, fn_part1] at h0
  obtain ⟨h0, -⟩ := split h0
  obtain ⟨h0, -⟩ := split h0
  obtain ⟨h0, -⟩ := split h0
  obtain ⟨h0, h4⟩ := split h0
  obtain ⟨h0, h3⟩ := split h0
  obtain ⟨h0, h2⟩ := split h0
  exact ⟨entry_real x0 _ _ _ h0, entry_real x2 _ _ _ h2, entry_real x3 _ _ _ h3, entry_real x4 _ _ _ h4⟩

end entries

end Cert.FiniteInputs

end
-- ==== Proof.lean ====
/-
  The certificate: the Pallas two-layer graph convolution with a linear head computes, on the extended reals, what its
  jnp reference computes.

  Both programs build the same edge lists (the edge array's two rows followed by the self loops), the same in-degrees and
  the same `dinv = where(deg > 0, rsqrt(max(deg, 1)), 0)`. Per layer the reference scales each edge's message by
  `dinv[src] · dinv[dst]` and sums the messages into their destination rows; the kernel scales a row by its own `dinv`
  before the gather, sums, and scales the sum by the destination's `dinv` in the next kernel, together with the bias and
  the floor at zero. An edge slot that lands in row `i` has destination row `i`, so the two differ by moving the factor
  `dinv[i]` across the sum: distributivity, valid on the extended reals because every term is finite — the features,
  weights and biases by the precondition, `dinv` because `rsqrt (max d 1)` is a real number for every `d`
  (`Cert.Gcn.net_eq`). The kernel's `0 - logit` is the reference's `-logit`.

  The three frames are the generated frame certificates (the reference's is its run with the result dropped); the ideal
  pass rewrote nothing, so there is nothing to preserve.
-/
import proofs.«165097_j8383776162491_2_alg».proof.Defs
import proofs.«165097_j8383776162491_2_alg».proof.Proof.Gen.Kernel
import proofs.«165097_j8383776162491_2_alg».proof.Proof.Gen.Kernel.Frame
import proofs.«165097_j8383776162491_2_alg».proof.Proof.Gen.KernelIdeal
import proofs.«165097_j8383776162491_2_alg».proof.Proof.Gen.KernelIdeal.Frame
import proofs.«165097_j8383776162491_2_alg».proof.Proof.Gen.ReferenceIdeal
import proofs.«165097_j8383776162491_2_alg».proof.Proof.Gen.Pre_finite_inputs
import proofs.«165097_j8383776162491_2_alg».proof.Proof.KernelRun
import proofs.«165097_j8383776162491_2_alg».proof.Proof.KernelValue
import proofs.«165097_j8383776162491_2_alg».proof.Proof.ReferenceValue
import proofs.«165097_j8383776162491_2_alg».proof.Proof.FiniteInputs
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem
open FiniteReals

/-- The kernel wraps its source words by the same three operations as the reference. -/
theorem wrapped_eq (x1 : IVec Cert.ReferenceIdeal.S2x1600000 32) :
    Cert.KernelIdeal.HostStretch.wrapped (Cert.ReferenceIdeal.ReadP.val_main_v3 (F := Ideal) x1)
      = Cert.ReferenceIdeal.ReadP.val_main_v21 (F := Ideal) x1 := rfl

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.ValueP.run (F := Ideal) m ρ)

theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Gen.W8 m ρ c (Proc.devRef .tc Cert.KernelIdeal.main_v45),
    Cert.KernelIdeal.ValueRun.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h2, h3, h4⟩ := Cert.FiniteInputs.of_pre _ _ _ _ _ _ _ _ (hpre c)
  rw [Cert.ReferenceIdeal.ReadP.val_main_v76_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  funext j
  obtain ⟨i, q, rfl⟩ : ∃ (i : Fin 100000) (q : Fin 2), j = ix2 i q := ⟨j 0, j 1, eq_ix2 j⟩
  refine (Cert.ReferenceIdeal.RefValue.result_eq _ _ _ _ _ _ _ _ i q).trans ?_
  refine Eq.trans ?_ (Cert.KernelIdeal.Net.result m ρ c i q).symm
  refine (congrFun (congrFun (Cert.Gcn.net_eq _ _ _ _ (Cert.ReferenceIdeal.RefValue.lands _)
    (Cert.ReferenceIdeal.RefValue.dinv_real _) _ _ _ (fun i k => h0 (ix2 i k)) (fun k c => h2 (ix2 k c))
    (fun c => h3 (ix1 c)) (fun k c => h4 (ix2 k c))) i) q).symm.trans ?_
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
